-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64 : Shape := ⟨2, ![1, 64]⟩
abbrev S2x1600000 : Shape := ⟨2, ![2, 1600000]⟩
abbrev S64x800000 : Shape := ⟨2, ![64, 800000]⟩
abbrev S800000 : Shape := ⟨1, ![800000]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S64x800000 : S_.BroadcastsInDim S64x800000 (![] : Fin 0 → Fin S64x800000.rank)
  reducesTo_S64x800000_S_d0_1 : S64x800000.ReducesTo [0, 1] S_
  bcast_S_S800000 : S_.BroadcastsInDim S800000 (![] : Fin 0 → Fin S800000.rank)
  reducesTo_S800000_S_d0 : S800000.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S1x64 .f32) (main_arg1 : IVec S2x1600000 32) (main_arg2 : FVec F S64x800000 .f32) (main_arg3 : FVec F S800000 .f32) (main_arg4 : FVec F S16x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S64x800000 .f32 := Host.absf main_arg2
  let main_cst_0 : FVec F S_ .f32 := constant S_ .f32 0x7F800000#32
  let main_v5 : FVec F S64x800000 .f32 := broadcastInDim S64x800000 ![] bcast_S_S64x800000 main_cst_0
  let main_v6 : IVec S64x800000 1 := cmpf .olt main_v4 main_v5
  let main_c_1 : IVec S_ 1 := constantI S_ 1 1#1
  let main_v7 : IVec S_ 1 := (fun x v => Host.reduce IntOp.andi x v reducesTo_S64x800000_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_arg9 main_v13 main_v16
-- ==== Kernel.lean ====
abbrev S1x64 : Shape := ⟨2, ![1, 64]⟩
abbrev S2x1600000 : Shape := ⟨2, ![2, 1600000]⟩
abbrev S64x800000 : Shape := ⟨2, ![64, 800000]⟩
abbrev S800000 : Shape := ⟨1, ![800000]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1x800000 : Shape := ⟨2, ![1, 800000]⟩
abbrev S64x16000 : Shape := ⟨2, ![64, 16000]⟩
abbrev S1x16000 : Shape := ⟨2, ![1, 16000]⟩
abbrev S50000x16 : Shape := ⟨2, ![50000, 16]⟩
abbrev S1650000x16 : Shape := ⟨2, ![1650000, 16]⟩
abbrev S50000x64 : Shape := ⟨2, ![50000, 64]⟩
abbrev S5000x16 : Shape := ⟨2, ![5000, 16]⟩
abbrev S5000x64 : Shape := ⟨2, ![5000, 64]⟩
abbrev S50000x32 : Shape := ⟨2, ![50000, 32]⟩
abbrev S5000x32 : Shape := ⟨2, ![5000, 32]⟩
abbrev S1650000x32 : Shape := ⟨2, ![1650000, 32]⟩
abbrev S1x32 : Shape := ⟨2, ![1, 32]⟩
abbrev S50000x1 : Shape := ⟨2, ![50000, 1]⟩
abbrev S1x1 : Shape := ⟨2, ![1, 1]⟩
abbrev S1x50000 : Shape := ⟨2, ![1, 50000]⟩

abbrev nBuf : Space → Nat
  | .hbm => 129
  | .vmem => 17
  | .smem => 0
  | _ => 0

abbrev hbmTy0_0 (i : Nat) : BufTy := match i % 128 with
  | 0 => ⟨S1x64, .f32⟩
  | 1 => ⟨S2x1600000, .i32⟩
  | 2 => ⟨S64x800000, .f32⟩
  | 3 => ⟨S800000, .f32⟩
  | 4 => ⟨S16x64, .f32⟩
  | 5 => ⟨S64, .f32⟩
  | 6 => ⟨S64x32, .f32⟩
  | 7 => ⟨S32, .f32⟩
  | 8 => ⟨S32x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S50000, .i32⟩
  | 15 => ⟨S1650000, .i32⟩
  | 16 => ⟨S1650000, .i32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S1650000, .f32⟩
  | 50 => ⟨S1x800000, .f32⟩
  | 51 => ⟨S1x800000, .f32⟩
  | 52 => ⟨S50000x16, .f32⟩
  | 53 => ⟨S1650000x1, .f32⟩
  | 54 => ⟨S_, .i32⟩
  | 55 => ⟨S1650000, .i32⟩
  | 56 => ⟨S1650000, .i1⟩
  | 57 => ⟨S_, .i32⟩
  | 58 => ⟨S1650000, .i32⟩
  | 59 => ⟨S1650000, .i32⟩
  | 60 => ⟨S1650000, .i32⟩
  | 61 => ⟨S1650000x1, .i32⟩
  | 62 => ⟨S1650000x16, .f32⟩
  | 63 => ⟨S1650000x16, .f32⟩
  | 64 => ⟨S1650000x16, .f32⟩
  | 65 => ⟨S_, .f32⟩
  | 66 => ⟨S50000x16, .f32⟩
  | 67 => ⟨S1650000x1, .i32⟩
  | 68 => ⟨S50000x16, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x32, .f32⟩
  | 77 => ⟨S50000x32, .bf16⟩
  | 78 => ⟨S_, .i32⟩
  | 79 => ⟨S1650000, .i32⟩
  | 80 => ⟨S1650000, .i1⟩
  | 81 => ⟨S_, .i32⟩
  | 82 => ⟨S1650000, .i32⟩
  | 83 => ⟨S1650000, .i32⟩
  | 84 => ⟨S1650000, .i32⟩
  | 85 => ⟨S1650000x1, .i32⟩
  | 86 => ⟨S1650000x32, .bf16⟩
  | 87 => ⟨S1650000x32, .f32⟩
  | 88 => ⟨S1650000x1, .f32⟩
  | 89 => ⟨S1650000x32, .f32⟩
  | 90 => ⟨S1650000x32, .f32⟩
  | 91 => ⟨S_, .f32⟩
  | 92 => ⟨S50000x32, .f32⟩
  | 93 => ⟨S1650000x1, .i32⟩
  | 94 => ⟨S50000x32, .f32⟩
  | 95 => ⟨S1x32, .f32⟩
  | 96 => ⟨S50000x32, .f32⟩
  | 97 => ⟨S50000x32, .f32⟩
  | 98 => ⟨S_, .f32⟩
  | 99 => ⟨S50000x32, .f32⟩
  | 100 => ⟨S50000x32, .f32⟩
  | 101 => ⟨S50000x1, .f32⟩
  | 102 => ⟨S_, .i32⟩
  | 103 => ⟨S1650000, .i32⟩
  | 104 => ⟨S1650000, .i1⟩
  | 105 => ⟨S_, .i32⟩
  | 106 => ⟨S1650000, .i32⟩
  | 107 => ⟨S1650000, .i32⟩
  | 108 => ⟨S1650000, .i32⟩
  | 109 => ⟨S1650000x1, .i32⟩
  | 110 => ⟨S1650000x1, .f32⟩
  | 111 => ⟨S1650000x1, .f32⟩
  | 112 => ⟨S1650000x1, .f32⟩
  | 113 => ⟨S_, .f32⟩
  | 114 => ⟨S50000x1, .f32⟩
  | 115 => ⟨S1650000x1, .i32⟩
  | 116 => ⟨S50000x1, .f32⟩
  | 117 => ⟨S1x1, .f32⟩
  | 118 => ⟨S50000x1, .f32⟩
  | 119 => ⟨S50000x1, .f32⟩
  | 120 => ⟨S1x50000, .f32⟩
  | 121 => ⟨S1x50000, .f32⟩
  | 122 => ⟨S1x50000, .f32⟩
  | 123 => ⟨S_, .f32⟩
  | 124 => ⟨S1x50000, .f32⟩
  | 125 => ⟨S1x50000, .f32⟩
  | 126 => ⟨S_, .f32⟩
  | 127 => ⟨S1x50000, .f32⟩
  | _ => ⟨S1x64, .f32⟩

abbrev hbmTy0_1 (i : Nat) : BufTy := match i % 128 with
  | 0 => ⟨S1x50000, .f32⟩
  | _ => ⟨S1x64, .f32⟩

abbrev hbmTy (i : Nat) : BufTy := match i / 128 with
  | 0 => hbmTy0_0 i
  | 1 => hbmTy0_1 i
  | _ => ⟨S1x64, .f32⟩

abbrev bufTy : (tb : Table) → Fin (tcTables nBuf tb) → BufTy
  | .hbm, ⟨i, _⟩ => hbmTy i
  | .local _ .vmem, ⟨0, _⟩ => ⟨S1x64, .f32⟩
  | .local _ .vmem, ⟨1, _⟩ => ⟨S64x16000, .f32⟩
  | .local _ .vmem, ⟨2, _⟩ => ⟨S64x16000, .f32⟩
  | .local _ .vmem, ⟨3, _⟩ => ⟨S1x16000, .f32⟩
  | .local _ .vmem, ⟨4, _⟩ => ⟨S1x16000, .f32⟩
  | .local _ .vmem, ⟨5, _⟩ => ⟨S1x16000, .f32⟩
  | .local _ .vmem, ⟨6, _⟩ => ⟨S1x16000, .f32⟩
  | .local _ .vmem, ⟨7, _⟩ => ⟨S5000x16, .f32⟩
  | .local _ .vmem, ⟨8, _⟩ => ⟨S5000x16, .f32⟩
  | .local _ .vmem, ⟨9, _⟩ => ⟨S16x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call2_cst : Ref sig .tc := ⟨.hbm, 98, rfl⟩
abbrev main_call2_v0 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S800000_S1x800000 : S800000.ShapeCasts S1x800000
  inb_S1x64_S1x64_0_0 : ∀ a, (![0, 0] : Fin 2 → Nat) a + S1x64.size a ≤ S1x64.size a
  h_S1x64 : 0 < S1x64.numel
  bitsLt_bf16_f32 : FTy.bits .bf16 < FTy.bits .f32
  inb_S64x16000_S64x16000_0_0 : ∀ a, (![0, 0] : Fin 2 → Nat) a + S64x16000.size a ≤ S64x16000.size a
  h_S64x16000 : 0 < S64x16000.numel
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  shapeCasts_S1x800000_S50000x16 : S1x800000.ShapeCasts S50000x16
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S1x50000 : S50000x1.ShapeCasts S1x50000
  bcast_S_S1x50000 : S_.BroadcastsInDim S1x50000 (![] : Fin 0 → Fin S1x50000.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S1x64_S64x16000_S1x16000_1_0_0_1_n_n_wf : DotDims.WF S1x64 S64x16000 S1x16000 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  dot_S5000x16_S16x64_S5000x64_1_0_0_1_n_n_wf : DotDims.WF S5000x16 S16x64 S5000x64 [1] [0] [0] [1] [] []
  dot_S5000x64_S64x32_S5000x32_1_0_0_1_n_n_wf : DotDims.WF S5000x64 S64x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x1_S50000x1_1_0_0_1_n_n_wf : DotDims.WF S50000x32 S32x1 S50000x1 [1] [0] [0] [1] [] []
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16000.size a ≤ S64x800000.size a
  hwx0_1 : ∀ i : grid0.Coords, EltTy.bits .f32 = 32 ∨ (Rect.block (s := S64x800000) S64x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x800000.size a
  hwx0_2 : ∀ i : grid0.Coords, EltTy.bits .f32 = 32 ∨ (Rect.block (s := S1x800000) S1x16000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16000.size a ≤ S1x800000.size a
  hwx0_3 : ∀ i : grid0.Coords, EltTy.bits .f32 = 32 ∨ (Rect.block (s := S1x800000) S1x16000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S1x64_S64x16000_S1x16000_1_0_0_1_n_n : DotDims S1x64 S64x16000 S1x16000 where
  lhsContracting := [1]
  rhsContracting := [0]
  lhsNonContracting := [0]
  rhsNonContracting := [1]
  lhsBatch := []
  rhsBatch := []
  wf := dot_S1x64_S64x16000_S1x16000_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

abbrev win0_0 : Pipeline.Window sig grid0 :=
  Pipeline.Window.ofSpec (Memref.whole main_arg0) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x16000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x64 : Shape := ⟨2, ![1, 64]⟩
abbrev S2x1600000 : Shape := ⟨2, ![2, 1600000]⟩
abbrev S64x800000 : Shape := ⟨2, ![64, 800000]⟩
abbrev S800000 : Shape := ⟨1, ![800000]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1x800000 : Shape := ⟨2, ![1, 800000]⟩
abbrev S50000x16 : Shape := ⟨2, ![50000, 16]⟩
abbrev S50000x64 : Shape := ⟨2, ![50000, 64]⟩
abbrev S1650000x64 : Shape := ⟨2, ![1650000, 64]⟩
abbrev S50000x32 : Shape := ⟨2, ![50000, 32]⟩
abbrev S1650000x32 : Shape := ⟨2, ![1650000, 32]⟩
abbrev S1x32 : Shape := ⟨2, ![1, 32]⟩
abbrev S50000x1 : Shape := ⟨2, ![50000, 1]⟩
abbrev S1x1 : Shape := ⟨2, ![1, 1]⟩
abbrev S1x50000 : Shape := ⟨2, ![1, 50000]⟩

abbrev nBuf : Space → Nat
  | .hbm => 128
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S2x1600000, .i32⟩
  | .hbm, ⟨2, _⟩ => ⟨S64x800000, .f32⟩
  | .hbm, ⟨3, _⟩ => ⟨S800000, .f32⟩
  | .hbm, ⟨4, _⟩ => ⟨S16x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S1x800000, .f32⟩
  | .hbm, ⟨51, _⟩ => ⟨S1x800000, .f32⟩
  | .hbm, ⟨52, _⟩ => ⟨S1x800000, .f32⟩
  | .hbm, ⟨53, _⟩ => ⟨S50000x16, .f32⟩
  | .hbm, ⟨54, _⟩ => ⟨S50000x64, .f32⟩
  | .hbm, ⟨55, _⟩ => ⟨S1650000x1, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x64, .f32⟩
  | .hbm, ⟨65, _⟩ => ⟨S1650000x64, .f32⟩
  | .hbm, ⟨66, _⟩ => ⟨S1650000x64, .f32⟩
  | .hbm, ⟨67, _⟩ => ⟨S_, .f32⟩
  | .hbm, ⟨68, _⟩ => ⟨S50000x64, .f32⟩
  | .hbm, ⟨69, _⟩ => ⟨S1650000x1, .i32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S50000x32, .f32⟩
  | .hbm, ⟨78, _⟩ => ⟨S1650000x1, .f32⟩
  | .hbm, ⟨79, _⟩ => ⟨S_, .i32⟩
  | .hbm, ⟨80, _⟩ => ⟨S1650000, .i32⟩
  | .hbm, ⟨81, _⟩ => ⟨S1650000, .i1⟩
  | .hbm, ⟨82, _⟩ => ⟨S_, .i32⟩
  | .hbm, ⟨83, _⟩ => ⟨S1650000, .i32⟩
  | .hbm, ⟨84, _⟩ => ⟨S1650000, .i32⟩
  | .hbm, ⟨85, _⟩ => ⟨S1650000, .i32⟩
  | .hbm, ⟨86, _⟩ => ⟨S1650000x1, .i32⟩
  | .hbm, ⟨87, _⟩ => ⟨S1650000x32, .f32⟩
  | .hbm, ⟨88, _⟩ => ⟨S1650000x32, .f32⟩
  | .hbm, ⟨89, _⟩ => ⟨S1650000x32, .f32⟩
  | .hbm, ⟨90, _⟩ => ⟨S_, .f32⟩
  | .hbm, ⟨91, _⟩ => ⟨S50000x32, .f32⟩
  | .hbm, ⟨92, _⟩ => ⟨S1650000x1, .i32⟩
  | .hbm, ⟨93, _⟩ => ⟨S50000x32, .f32⟩
  | .hbm, ⟨94, _⟩ => ⟨S1x32, .f32⟩
  | .hbm, ⟨95, _⟩ => ⟨S50000x32, .f32⟩
  | .hbm, ⟨96, _⟩ => ⟨S50000x32, .f32⟩
  | .hbm, ⟨97, _⟩ => ⟨S_, .f32⟩
  | .hbm, ⟨98, _⟩ => ⟨S50000x32, .f32⟩
  | .hbm, ⟨99, _⟩ => ⟨S50000x32, .f32⟩
  | .hbm, ⟨100, _⟩ => ⟨S50000x1, .f32⟩
  | .hbm, ⟨101, _⟩ => ⟨S1650000x1, .f32⟩
  | .hbm, ⟨102, _⟩ => ⟨S_, .i32⟩
  | .hbm, ⟨103, _⟩ => ⟨S1650000, .i32⟩
  | .hbm, ⟨104, _⟩ => ⟨S1650000, .i1⟩
  | .hbm, ⟨105, _⟩ => ⟨S_, .i32⟩
  | .hbm, ⟨106, _⟩ => ⟨S1650000, .i32⟩
  | .hbm, ⟨107, _⟩ => ⟨S1650000, .i32⟩
  | .hbm, ⟨108, _⟩ => ⟨S1650000, .i32⟩
  | .hbm, ⟨109, _⟩ => ⟨S1650000x1, .i32⟩
  | .hbm, ⟨110, _⟩ => ⟨S1650000x1, .f32⟩
  | .hbm, ⟨111, _⟩ => ⟨S1650000x1, .f32⟩
  | .hbm, ⟨112, _⟩ => ⟨S_, .f32⟩
  | .hbm, ⟨113, _⟩ => ⟨S50000x1, .f32⟩
  | .hbm, ⟨114, _⟩ => ⟨S1650000x1, .i32⟩
  | .hbm, ⟨115, _⟩ => ⟨S50000x1, .f32⟩
  | .hbm, ⟨116, _⟩ => ⟨S1x1, .f32⟩
  | .hbm, ⟨117, _⟩ => ⟨S50000x1, .f32⟩
  | .hbm, ⟨118, _⟩ => ⟨S50000x1, .f32⟩
  | .hbm, ⟨119, _⟩ => ⟨S1x50000, .f32⟩
  | .hbm, ⟨120, _⟩ => ⟨S1x50000, .f32⟩
  | .hbm, ⟨121, _⟩ => ⟨S1x50000, .f32⟩
  | .hbm, ⟨122, _⟩ => ⟨S_, .f32⟩
  | .hbm, ⟨123, _⟩ => ⟨S1x50000, .f32⟩
  | .hbm, ⟨124, _⟩ => ⟨S1x50000, .f32⟩
  | .hbm, ⟨125, _⟩ => ⟨S_, .f32⟩
  | .hbm, ⟨126, _⟩ => ⟨S1x50000, .f32⟩
  | .hbm, ⟨127, _⟩ => ⟨S1x50000, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_cst_16 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S800000_S1x800000_1 : S800000.BroadcastsInDim S1x800000 (![1] : Fin 1 → Fin S1x800000.rank)
  shapeCasts_S1x800000_S50000x16 : S1x800000.ShapeCasts S50000x16
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S1x50000 : S50000x1.ShapeCasts S1x50000
  bcast_S_S1x50000 : S_.BroadcastsInDim S1x50000 (![] : Fin 0 → Fin S1x50000.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S1x64_S64x800000_S1x800000_1_0_0_1_n_n_wf : DotDims.WF S1x64 S64x800000 S1x800000 [1] [0] [0] [1] [] []
  dot_S50000x16_S16x64_S50000x64_1_0_0_1_n_n_wf : DotDims.WF S50000x16 S16x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x32_S50000x32_1_0_0_1_n_n_wf : DotDims.WF S50000x64 S64x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x1_S50000x1_1_0_0_1_n_n_wf : DotDims.WF S50000x32 S32x1 S50000x1 [1] [0] [0] [1] [] []
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S1x64_S64x800000_S1x800000_1_0_0_1_n_n : DotDims S1x64 S64x800000 S1x800000 where
  lhsContracting := [1]
  rhsContracting := [0]
  lhsNonContracting := [0]
  rhsNonContracting := [1]
  lhsBatch := []
  rhsBatch := []
  wf := dot_S1x64_S64x800000_S1x800000_1_0_0_1_n_n_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

class Facts : Prop extends Facts₀ where

variable [Facts]
-- ==== Proof.KernelRun.lean ====
/-
  The idealized kernel program's run, with its result array named.

  The program is twelve segments: nine stretches of host operations and three grid regions (the decoder product, and the
  two dense layers' products).  Every weakly fair execution ends, nothing faulting, with every unscoped buffer at the last
  boundary's contents: the fold of the stretches and of the three regions' write-backs over the launch memory
  (`Gen.W12`).  Read at the result buffer this names the result; read at the ten arguments it gives them back as launched.
-/
import proofs.«108978_j2104533975392_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v93) = W12 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v93 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.RunValue

end
-- ==== Proof.Spec.lean ====
/-
  The network both programs compute, stage by stage, as functions of the argument arrays.

  A decoder row `x · dec_W + dec_b` is laid out as `[50000, 16]` node features.  Three graph layers follow over the
  edge list with one self loop per node appended: each aggregates, at every node, the rows along the edges into it,
  weighted by the edge coefficient `dinv[src] · dinv[dst]` (`dinv` the inverse square root of the in-degree where that
  is positive, else `0`), around a dense layer with bias; the first two clamp at zero, the last is passed through the
  logistic function.  The stages are spelt with the host's own operations (scatter, gather, `dot_general`, broadcasts),
  in the order the reference applies them, so that reading the reference's operations back gives these terms on the
  nose.  The pieces after the edge data are functions of the edge lists and coefficients, so that they can be applied
  to whatever a program has computed for those.
-/
import proofs.«108978_j2104533975392_2_alg».proof.ReferenceIdeal
import proofs.«108978_j2104533975392_2_alg».proof.Proof.Gen.ReferenceIdeal

noncomputable section

namespace Cert.Spec

open Cert.ReferenceIdeal Cert.ReferenceIdeal.Gen Idealize.ShloMosaic

variable {F : FTy → Type} [FloatOps F]

/-! ## The edge data -/

/-- The edges' start nodes: row 0 of the edge list, then one self loop per node. -/
def src (x1 : IVec S2x1600000 32) : IVec S1650000 32 :=
  concatenate S1650000 0 [⟨S1600000, shapeCast _ (extractStridedSlice S1x1600000 ![0, 0] x1 slices_S2x1600000_S1x1600000_0_0) shapeCasts_S1x1600000_S1600000⟩, ⟨S50000, iotaInDim S50000 32 0⟩] concatenates_S1600000_S50000_S1650000_d0

/-- The edges' end nodes: row 1 of the edge list, then one self loop per node. -/
def dst (x1 : IVec S2x1600000 32) : IVec S1650000 32 :=
  concatenate S1650000 0 [⟨S1600000, shapeCast _ (extractStridedSlice S1x1600000 ![1, 0] x1 slices_S2x1600000_S1x1600000_1_0) shapeCasts_S1x1600000_S1600000⟩, ⟨S50000, iotaInDim S50000 32 0⟩] concatenates_S1600000_S50000_S1650000_d0

/-- Node numbers as a column of start indices. -/
def col (s : IVec S1650000 32) : IVec S1650000x1 32 :=
  broadcastInDim S1650000x1 ![0] bcast_S1650000_S1650000x1_0 s

/-- Node numbers with a negative one counted from the end, as a column of start indices (the form a gather takes). -/
def wrapCol (s : IVec S1650000 32) : IVec S1650000x1 32 :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- One coefficient per edge as a column. -/
def colF (v : FVec F S1650000 .f32) : FVec F S1650000x1 .f32 :=
  broadcastInDim S1650000x1 ![0] bcast_S1650000_S1650000x1_0 v

/-- The in-degrees: a one added at every edge's end node. -/
def deg (x1 : IVec S2x1600000 32) : FVec F S50000 .f32 :=
  Host.scatterAdd scatter_S50000_S1650000x1_S1650000_n_0_0_1 (broadcastInDim S50000 ![] bcast_S_S50000 (constant S_ .f32 0x00000000#32)) (col (dst x1))
    (broadcastInDim S1650000 ![] bcast_S_S1650000 (constant S_ .f32 0x3F800000#32))

/-- Whether a node's in-degree is positive. -/
def positive (x1 : IVec S2x1600000 32) : IVec S50000 1 :=
  cmpf .ogt (deg (F := F) x1) (broadcastInDim S50000 ![] bcast_S_S50000 (constant S_ .f32 0x00000000#32))

/-- The inverse square roots of the in-degrees. -/
def rsqrtDeg (x1 : IVec S2x1600000 32) : FVec F S50000 .f32 :=
  Host.rsqrt (deg (F := F) x1)

/-- The scalar zero. -/
def zeroScalar : FVec F S_ .f32 := constant S_ .f32 0x00000000#32

/-- A per-node value where a flag holds, and the scalar `z` elsewhere. -/
def guard (p : IVec S50000 1) (r : FVec F S50000 .f32) (z : FVec F S_ .f32) : FVec F S50000 .f32 :=
  select p r (broadcastInDim S50000 ![] bcast_S_S50000 (id z))

/-- The inverse square root of a positive in-degree, and `0` otherwise. -/
def dinv (x1 : IVec S2x1600000 32) : FVec F S50000 .f32 :=
  guard (positive (F := F) x1) (rsqrtDeg (F := F) x1) zeroScalar

/-- The edge coefficients from per-node weights: `w[src] · w[dst]`. -/
def coefOf (w : FVec F S50000 .f32) (s d : IVec S1650000 32) : FVec F S1650000 .f32 :=
  mulf (Host.gather gather_S50000_S1650000x1_S1650000_n_0_n_n_0_1_1 w (wrapCol s))
    (Host.gather gather_S50000_S1650000x1_S1650000_n_0_n_n_0_1_1 w (wrapCol d))

/-- The edge coefficients `dinv[src] · dinv[dst]`. -/
def coef (x1 : IVec S2x1600000 32) : FVec F S1650000 .f32 :=
  coefOf (dinv (F := F) x1) (src x1) (dst x1)

/-! ## The decoder and the layers -/

/-- The decoder's bias as a one-row matrix. -/
def biasRow (x3 : FVec F S800000 .f32) : FVec F S1x800000 .f32 :=
  broadcastInDim S1x800000 ![1] bcast_S800000_S1x800000_1 x3

/-- The first layer's bias spread over the nodes. -/
def bias64 (x5 : FVec F S64 .f32) : FVec F S50000x64 .f32 :=
  broadcastInDim S50000x64 ![0, 1] bcast_S1x64_S50000x64_0_1 (broadcastInDim S1x64 ![1] bcast_S64_S1x64_1 x5)

/-- The decoder's row `x · dec_W + dec_b`. -/
def decoderRow (x0 : FVec F S1x64 .f32) (x2 : FVec F S64x800000 .f32) (x3 : FVec F S800000 .f32) : FVec F S1x800000 .f32 :=
  addf (Host.dotGeneral dot_S1x64_S64x800000_S1x800000_1_0_0_1_n_n none x0 x2)
    (biasRow x3)

/-- The decoder's row as node features. -/
def decoded (x0 : FVec F S1x64 .f32) (x2 : FVec F S64x800000 .f32) (x3 : FVec F S800000 .f32) : FVec F S50000x16 .f32 :=
  shapeCast _ (decoderRow x0 x2 x3) shapeCasts_S1x800000_S50000x16

/-- The first layer, multiplying before aggregating: `∑ over edges into i of coef · (h · W4)[src] + b4`. -/
def layer1 (s d : IVec S1650000 32) (cf : FVec F S1650000 .f32) (h : FVec F S50000x16 .f32) (x4 : FVec F S16x64 .f32)
    (x5 : FVec F S64 .f32) : FVec F S50000x64 .f32 :=
  addf
    (Host.scatterAdd scatter_S50000x64_S1650000x1_S1650000x64_1_0_0_1 (broadcastInDim S50000x64 ![] bcast_S_S50000x64 (constant S_ .f32 0x00000000#32)) (col d)
      (mulf (broadcastInDim S1650000x64 ![0, 1] bcast_S1650000x1_S1650000x64_0_1 (colF cf))
        (Host.gather gather_S50000x64_S1650000x1_S1650000x64_1_0_n_n_0_1_164
          (Host.dotGeneral dot_S50000x16_S16x64_S50000x64_1_0_0_1_n_n none h x4) (wrapCol s))))
    (bias64 x5)

/-- The clamp at zero after the first layer. -/
def clamp64 (a : FVec F S50000x64 .f32) : FVec F S50000x64 .f32 :=
  maximumf a (broadcastInDim S50000x64 ![] bcast_S_S50000x64 (constant S_ .f32 0x00000000#32))

/-- The second layer's product. -/
def product2 (r : FVec F S50000x64 .f32) (x6 : FVec F S64x32 .f32) : FVec F S50000x32 .f32 :=
  Host.dotGeneral dot_S50000x64_S64x32_S50000x32_1_0_0_1_n_n none r x6

/-- The second layer after its product, up to its bias: `∑ over edges into i of coef · z2[src] + b5`. -/
def layer2sum (s d : IVec S1650000 32) (cf : FVec F S1650000 .f32) (z2 : FVec F S50000x32 .f32) (x7 : FVec F S32 .f32) :
    FVec F S50000x32 .f32 :=
  addf
    (Host.scatterAdd scatter_S50000x32_S1650000x1_S1650000x32_1_0_0_1 (broadcastInDim S50000x32 ![] bcast_S_S50000x32 (constant S_ .f32 0x00000000#32)) (col d)
      (mulf (broadcastInDim S1650000x32 ![0, 1] bcast_S1650000x1_S1650000x32_0_1 (colF cf))
        (Host.gather gather_S50000x32_S1650000x1_S1650000x32_1_0_n_n_0_1_132 z2 (wrapCol s))))
    (broadcastInDim S50000x32 ![0, 1] bcast_S1x32_S50000x32_0_1 (broadcastInDim S1x32 ![1] bcast_S32_S1x32_1 x7))

/-- The clamp at zero after the second layer. -/
def clamp32 (a : FVec F S50000x32 .f32) : FVec F S50000x32 .f32 :=
  maximumf a (broadcastInDim S50000x32 ![] bcast_S_S50000x32 (constant S_ .f32 0x00000000#32))

/-- The third layer's product. -/
def product3 (r : FVec F S50000x32 .f32) (x8 : FVec F S32x1 .f32) : FVec F S50000x1 .f32 :=
  Host.dotGeneral dot_S50000x32_S32x1_S50000x1_1_0_0_1_n_n none r x8

/-- The third layer after its product (aggregate, bias), as a row, through the logistic function. -/
def layer3 (s d : IVec S1650000 32) (cf : FVec F S1650000 .f32) (z3 : FVec F S50000x1 .f32) (x9 : FVec F S1 .f32) :
    FVec F S1x50000 .f32 :=
  Host.divf (broadcastInDim S1x50000 ![] bcast_S_S1x50000 (constant S_ .f32 0x3F800000#32))
    (addf (broadcastInDim S1x50000 ![] bcast_S_S1x50000 (constant S_ .f32 0x3F800000#32))
      (Host.exp (Host.negf (shapeCast _
        (addf
          (Host.scatterAdd scatter_S50000x1_S1650000x1_S1650000x1_1_0_0_1 (broadcastInDim S50000x1 ![] bcast_S_S50000x1 (constant S_ .f32 0x00000000#32)) (col d)
            (mulf (colF cf) (Host.gather gather_S50000x1_S1650000x1_S1650000x1_1_0_n_n_0_1_11 z3 (wrapCol s))))
          (broadcastInDim S50000x1 ![0, 1] bcast_S1x1_S50000x1_0_1 (broadcastInDim S1x1 ![1] bcast_S1_S1x1_1 x9)))
        shapeCasts_S50000x1_S1x50000))))

/-- The whole network. -/
def result (x0 : FVec F S1x64 .f32) (x1 : IVec S2x1600000 32) (x2 : FVec F S64x800000 .f32) (x3 : FVec F S800000 .f32)
    (x4 : FVec F S16x64 .f32) (x5 : FVec F S64 .f32) (x6 : FVec F S64x32 .f32) (x7 : FVec F S32 .f32) (x8 : FVec F S32x1 .f32)
    (x9 : FVec F S1 .f32) : FVec F S1x50000 .f32 :=
  layer3 (src x1) (dst x1) (coef x1)
    (product3 (clamp32 (layer2sum (src x1) (dst x1) (coef x1)
      (product2 (clamp64 (layer1 (src x1) (dst x1) (coef x1) (decoded x0 x2 x3) x4 x5)) x6) x7)) x8) x9

end Cert.Spec

end
-- ==== Proof.Reads.lean ====
/-
  Reading a stretch of host operations back.

  The contents of a buffer after a list of host operations is a fold over the list.  One simplification pass rewrites
  each operation's result at its own buffer to its function's value and at any other buffer to what was there; it does
  not reach the operands of a concatenation, which sit inside dependent pairs.  The rewriting loop below finishes those.
-/
import Idealize.ShloMosaic.Lib.StableHlo.Run

namespace Cert.Reads

open Idealize.ShloMosaic Idealize.ShloMosaic.StableHlo

/-- Rewrites every remaining read of an operation's result, at its own buffer or at another one. -/
macro "after_reads" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- One simplification pass, then the rewriting loop. -/
macro "read_back" : tactic => `(tactic| (after_results_simp; after_reads))

end Cert.Reads
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«108978_j2104533975392_2_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.KernelStretches.lean ====
/-
  The idealized kernel program's host operations, stretch by stretch.

  Between its three grid regions the program runs nine stretches of host operations.  Each is read back here over an
  arbitrary valuation of the buffers it starts from: its result is the matching stage of `Spec` applied to what the
  stretch found in the buffers it reads, and it leaves the buffers it does not write as they were.  Two stretches are
  not the network's own: the first layer's aggregation of the 16 decoded features BEFORE its product, stated in the
  program's own operations; and the second layer's gather through a copy in a shorter float format, which at the ideal
  instance is a gather of the product itself.
-/
import proofs.«108978_j2104533975392_2_alg».proof.Proof.Gen.KernelIdeal.Frame
import proofs.«108978_j2104533975392_2_alg».proof.Proof.Spec
import proofs.«108978_j2104533975392_2_alg».proof.Proof.Reads
import proofs.«108978_j2104533975392_2_alg».proof.Proof.LibBiasRow
import Idealize.ShloMosaic.PureOps.Ideal

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Cert.Reads

/-! ## The stretches, each over an arbitrary valuation -/

section Stretches

variable (V : Valuation τ sig (Elt Ideal))

/-! ### The edge lists and the degrees -/

theorem edges_src : after hostOps0 V (Proc.devRef .tc main_v5) = Cert.Spec.src (V (Proc.devRef .tc main_arg1)) := by
  read_back
  rfl

theorem edges_dst : after hostOps0 V (Proc.devRef .tc main_v6) = Cert.Spec.dst (V (Proc.devRef .tc main_arg1)) := by
  read_back
  rfl

theorem edges_positive : after hostOps0 V (Proc.devRef .tc main_v12) = Cert.Spec.positive (F := Ideal) (V (Proc.devRef .tc main_arg1)) := by
  read_back
  rfl

theorem edges_rsqrt : after hostOps0 V (Proc.devRef .tc main_v13) = Cert.Spec.rsqrtDeg (F := Ideal) (V (Proc.devRef .tc main_arg1)) := by
  read_back
  rfl

theorem edges_zero : after hostOps0 V (Proc.devRef .tc main_cst_2) = Cert.Spec.zeroScalar (F := Ideal) := by
  read_back
  rfl

theorem edges_arg0 : after hostOps0 V (Proc.devRef .tc main_arg0) = V (Proc.devRef .tc main_arg0) := by
  read_back

theorem edges_arg2 : after hostOps0 V (Proc.devRef .tc main_arg2) = V (Proc.devRef .tc main_arg2) := by
  read_back

theorem edges_arg3 : after hostOps0 V (Proc.devRef .tc main_arg3) = V (Proc.devRef .tc main_arg3) := by
  read_back

theorem edges_arg4 : after hostOps0 V (Proc.devRef .tc main_arg4) = V (Proc.devRef .tc main_arg4) := by
  read_back

theorem edges_arg5 : after hostOps0 V (Proc.devRef .tc main_arg5) = V (Proc.devRef .tc main_arg5) := by
  read_back

theorem edges_arg6 : after hostOps0 V (Proc.devRef .tc main_arg6) = V (Proc.devRef .tc main_arg6) := by
  read_back

theorem edges_arg7 : after hostOps0 V (Proc.devRef .tc main_arg7) = V (Proc.devRef .tc main_arg7) := by
  read_back

theorem edges_arg8 : after hostOps0 V (Proc.devRef .tc main_arg8) = V (Proc.devRef .tc main_arg8) := by
  read_back

theorem edges_arg9 : after hostOps0 V (Proc.devRef .tc main_arg9) = V (Proc.devRef .tc main_arg9) := by
  read_back

/-! ### The guard -/

theorem guard_out : after hostOps0_1 V (Proc.devRef .tc main_v14) = Cert.Spec.guard (F := Ideal) (V (Proc.devRef .tc main_v12)) (V (Proc.devRef .tc main_v13)) (V (Proc.devRef .tc main_cst_2)) := by
  read_back
  rfl

theorem guard_v5 : after hostOps0_1 V (Proc.devRef .tc main_v5) = V (Proc.devRef .tc main_v5) := by
  read_back

theorem guard_v6 : after hostOps0_1 V (Proc.devRef .tc main_v6) = V (Proc.devRef .tc main_v6) := by
  read_back

theorem guard_arg0 : after hostOps0_1 V (Proc.devRef .tc main_arg0) = V (Proc.devRef .tc main_arg0) := by
  read_back

theorem guard_arg2 : after hostOps0_1 V (Proc.devRef .tc main_arg2) = V (Proc.devRef .tc main_arg2) := by
  read_back

theorem guard_arg3 : after hostOps0_1 V (Proc.devRef .tc main_arg3) = V (Proc.devRef .tc main_arg3) := by
  read_back

theorem guard_arg4 : after hostOps0_1 V (Proc.devRef .tc main_arg4) = V (Proc.devRef .tc main_arg4) := by
  read_back

theorem guard_arg5 : after hostOps0_1 V (Proc.devRef .tc main_arg5) = V (Proc.devRef .tc main_arg5) := by
  read_back

theorem guard_arg6 : after hostOps0_1 V (Proc.devRef .tc main_arg6) = V (Proc.devRef .tc main_arg6) := by
  read_back

theorem guard_arg7 : after hostOps0_1 V (Proc.devRef .tc main_arg7) = V (Proc.devRef .tc main_arg7) := by
  read_back

theorem guard_arg8 : after hostOps0_1 V (Proc.devRef .tc main_arg8) = V (Proc.devRef .tc main_arg8) := by
  read_back

theorem guard_arg9 : after hostOps0_1 V (Proc.devRef .tc main_arg9) = V (Proc.devRef .tc main_arg9) := by
  read_back

/-! ### The edge coefficients and the decoder's bias row -/

theorem coef_out : after hostOps0_2 V (Proc.devRef .tc main_v29) = Cert.Spec.coefOf (F := Ideal) (V (Proc.devRef .tc main_v14)) (V (Proc.devRef .tc main_v5)) (V (Proc.devRef .tc main_v6)) := by
  read_back
  rfl

/-- The bias as a one-row matrix: the reshape of the bias vector is its broadcast along a new leading axis. -/
theorem bias_out : after hostOps0_2 V (Proc.devRef .tc main_v30) = Cert.Spec.biasRow (F := Ideal) (V (Proc.devRef .tc main_arg3)) := by
  read_back
  exact Cert.LibBiasRow.shapeCast_row_eq (b := 800000) _ _ _

theorem coef_v5 : after hostOps0_2 V (Proc.devRef .tc main_v5) = V (Proc.devRef .tc main_v5) := by
  read_back

theorem coef_v6 : after hostOps0_2 V (Proc.devRef .tc main_v6) = V (Proc.devRef .tc main_v6) := by
  read_back

theorem coef_arg0 : after hostOps0_2 V (Proc.devRef .tc main_arg0) = V (Proc.devRef .tc main_arg0) := by
  read_back

theorem coef_arg2 : after hostOps0_2 V (Proc.devRef .tc main_arg2) = V (Proc.devRef .tc main_arg2) := by
  read_back

theorem coef_arg4 : after hostOps0_2 V (Proc.devRef .tc main_arg4) = V (Proc.devRef .tc main_arg4) := by
  read_back

theorem coef_arg5 : after hostOps0_2 V (Proc.devRef .tc main_arg5) = V (Proc.devRef .tc main_arg5) := by
  read_back

theorem coef_arg6 : after hostOps0_2 V (Proc.devRef .tc main_arg6) = V (Proc.devRef .tc main_arg6) := by
  read_back

theorem coef_arg7 : after hostOps0_2 V (Proc.devRef .tc main_arg7) = V (Proc.devRef .tc main_arg7) := by
  read_back

theorem coef_arg8 : after hostOps0_2 V (Proc.devRef .tc main_arg8) = V (Proc.devRef .tc main_arg8) := by
  read_back

theorem coef_arg9 : after hostOps0_2 V (Proc.devRef .tc main_arg9) = V (Proc.devRef .tc main_arg9) := by
  read_back

/-! ### Between the decoder's region and the first layer's -/

/-- The first layer's aggregation of the decoded features, before its product. -/
theorem aggregate16 : after hostOps1 V (Proc.devRef .tc main_v45)
    = Host.scatterAdd (F := Ideal) scatter_S50000x16_S1650000x1_S1650000x16_1_0_0_1
        (broadcastInDim S50000x16 ![] bcast_S_S50000x16 (constant S_ .f32 0x00000000#32)) (Cert.Spec.col (V (Proc.devRef .tc main_v6)))
        (mulf (broadcastInDim S1650000x16 ![0, 1] bcast_S1650000x1_S1650000x16_0_1 (Cert.Spec.colF (F := Ideal) (V (Proc.devRef .tc main_v29))))
          (Host.gather gather_S50000x16_S1650000x1_S1650000x16_1_0_n_n_0_1_116
            (shapeCast S50000x16 (V (Proc.devRef .tc main_v31)) shapeCasts_S1x800000_S50000x16) (Cert.Spec.wrapCol (V (Proc.devRef .tc main_v5))))) := by
  read_back
  rfl

theorem mid1_v5 : after hostOps1 V (Proc.devRef .tc main_v5) = V (Proc.devRef .tc main_v5) := by
  read_back

theorem mid1_v6 : after hostOps1 V (Proc.devRef .tc main_v6) = V (Proc.devRef .tc main_v6) := by
  read_back

theorem mid1_v29 : after hostOps1 V (Proc.devRef .tc main_v29) = V (Proc.devRef .tc main_v29) := by
  read_back

theorem mid1_arg4 : after hostOps1 V (Proc.devRef .tc main_arg4) = V (Proc.devRef .tc main_arg4) := by
  read_back

theorem mid1_arg5 : after hostOps1 V (Proc.devRef .tc main_arg5) = V (Proc.devRef .tc main_arg5) := by
  read_back

theorem mid1_arg6 : after hostOps1 V (Proc.devRef .tc main_arg6) = V (Proc.devRef .tc main_arg6) := by
  read_back

theorem mid1_arg7 : after hostOps1 V (Proc.devRef .tc main_arg7) = V (Proc.devRef .tc main_arg7) := by
  read_back

theorem mid1_arg8 : after hostOps1 V (Proc.devRef .tc main_arg8) = V (Proc.devRef .tc main_arg8) := by
  read_back

theorem mid1_arg9 : after hostOps1 V (Proc.devRef .tc main_arg9) = V (Proc.devRef .tc main_arg9) := by
  read_back

/-! ### Between the first layer's region and the second layer's -/

theorem bias1_out : after hostOps2 V (Proc.devRef .tc main_v49) = addf (V (Proc.devRef .tc main_v46)) (Cert.Spec.bias64 (F := Ideal) (V (Proc.devRef .tc main_arg5))) := by
  read_back
  rfl

theorem bias1_v5 : after hostOps2 V (Proc.devRef .tc main_v5) = V (Proc.devRef .tc main_v5) := by
  read_back

theorem bias1_v6 : after hostOps2 V (Proc.devRef .tc main_v6) = V (Proc.devRef .tc main_v6) := by
  read_back

theorem bias1_v29 : after hostOps2 V (Proc.devRef .tc main_v29) = V (Proc.devRef .tc main_v29) := by
  read_back

theorem bias1_arg6 : after hostOps2 V (Proc.devRef .tc main_arg6) = V (Proc.devRef .tc main_arg6) := by
  read_back

theorem bias1_arg7 : after hostOps2 V (Proc.devRef .tc main_arg7) = V (Proc.devRef .tc main_arg7) := by
  read_back

theorem bias1_arg8 : after hostOps2 V (Proc.devRef .tc main_arg8) = V (Proc.devRef .tc main_arg8) := by
  read_back

theorem bias1_arg9 : after hostOps2 V (Proc.devRef .tc main_arg9) = V (Proc.devRef .tc main_arg9) := by
  read_back

theorem clamp1_out : after hostOps2_1 V (Proc.devRef .tc main_v50) = Cert.Spec.clamp64 (F := Ideal) (V (Proc.devRef .tc main_v49)) := by
  read_back
  rfl

theorem clamp1_v5 : after hostOps2_1 V (Proc.devRef .tc main_v5) = V (Proc.devRef .tc main_v5) := by
  read_back

theorem clamp1_v6 : after hostOps2_1 V (Proc.devRef .tc main_v6) = V (Proc.devRef .tc main_v6) := by
  read_back

theorem clamp1_v29 : after hostOps2_1 V (Proc.devRef .tc main_v29) = V (Proc.devRef .tc main_v29) := by
  read_back

theorem clamp1_arg6 : after hostOps2_1 V (Proc.devRef .tc main_arg6) = V (Proc.devRef .tc main_arg6) := by
  read_back

theorem clamp1_arg7 : after hostOps2_1 V (Proc.devRef .tc main_arg7) = V (Proc.devRef .tc main_arg7) := by
  read_back

theorem clamp1_arg8 : after hostOps2_1 V (Proc.devRef .tc main_arg8) = V (Proc.devRef .tc main_arg8) := by
  read_back

theorem clamp1_arg9 : after hostOps2_1 V (Proc.devRef .tc main_arg9) = V (Proc.devRef .tc main_arg9) := by
  read_back

/-! ### After the second layer's region -/

/-- The second layer after its product, up to its bias; the gathered copy in a shorter format is the product. -/
theorem second_out : after hostOps3 V (Proc.devRef .tc main_v69)
    = Cert.Spec.layer2sum (F := Ideal) (V (Proc.devRef .tc main_v5)) (V (Proc.devRef .tc main_v6)) (V (Proc.devRef .tc main_v29)) (V (Proc.devRef .tc main_v51)) (V (Proc.devRef .tc main_arg7)) := by
  read_back
  rfl

theorem second_v5 : after hostOps3 V (Proc.devRef .tc main_v5) = V (Proc.devRef .tc main_v5) := by
  read_back

theorem second_v6 : after hostOps3 V (Proc.devRef .tc main_v6) = V (Proc.devRef .tc main_v6) := by
  read_back

theorem second_v29 : after hostOps3 V (Proc.devRef .tc main_v29) = V (Proc.devRef .tc main_v29) := by
  read_back

theorem second_arg8 : after hostOps3 V (Proc.devRef .tc main_arg8) = V (Proc.devRef .tc main_arg8) := by
  read_back

theorem second_arg9 : after hostOps3 V (Proc.devRef .tc main_arg9) = V (Proc.devRef .tc main_arg9) := by
  read_back

theorem clamp2_out : after hostOps3_1 V (Proc.devRef .tc main_v70) = Cert.Spec.clamp32 (F := Ideal) (V (Proc.devRef .tc main_v69)) := by
  read_back
  rfl

theorem clamp2_v5 : after hostOps3_1 V (Proc.devRef .tc main_v5) = V (Proc.devRef .tc main_v5) := by
  read_back

theorem clamp2_v6 : after hostOps3_1 V (Proc.devRef .tc main_v6) = V (Proc.devRef .tc main_v6) := by
  read_back

theorem clamp2_v29 : after hostOps3_1 V (Proc.devRef .tc main_v29) = V (Proc.devRef .tc main_v29) := by
  read_back

theorem clamp2_arg8 : after hostOps3_1 V (Proc.devRef .tc main_arg8) = V (Proc.devRef .tc main_arg8) := by
  read_back

theorem clamp2_arg9 : after hostOps3_1 V (Proc.devRef .tc main_arg9) = V (Proc.devRef .tc main_arg9) := by
  read_back

/-- The third layer and the logistic function. -/
theorem third_out : after hostOps3_2 V (Proc.devRef .tc main_v93)
    = Cert.Spec.layer3 (F := Ideal) (V (Proc.devRef .tc main_v5)) (V (Proc.devRef .tc main_v6)) (V (Proc.devRef .tc main_v29))
        (Cert.Spec.product3 (F := Ideal) (V (Proc.devRef .tc main_v70)) (V (Proc.devRef .tc main_arg8))) (V (Proc.devRef .tc main_arg9)) := by
  read_back
  rfl

end Stretches

end Cert.KernelIdeal.KernelValue

end
-- ==== Proof.LibRowGather.lean ====
/-
  `stablehlo.gather` of WHOLE ROWS of a matrix, read at an index.

  What `x[idx]` lowers to for a matrix `x : [N, C]` and an integer array `idx` of row numbers: a gather whose one offset
  axis is the result's last axis, with collapsed_slice_dims `[0]`, start_index_map `[0]`, slice_sizes `[1, C]` and the
  index vector on the start indices' last axis, of extent one. The operand has two axes. Axis 0 is collapsed and named by
  the start index map: its coordinate is the start index, read as a signed integer and clamped into `[0, N − 1]` (the
  clamp that makes the one-row slice fit), with no batching and no offset part. Axis 1 is the one offset axis: it is not
  in the start index map, so its slice starts at `0`, it is not a batching axis, and its offset coordinate is the
  result's coordinate on the offset axis, that is the result's last coordinate. So result element `(…, k)` is `x` at the
  clamped row and column `k`. Stated for start indices `[R, 1]` with result `[R, C]` (`rowsDims`, `gather_rows_apply`)
  and for start indices `[P, A, 1]` with result `[P, A, C]` (`rowsDims3`, `gather_rows3_apply`).
-/
import Idealize.ShloMosaic.PureOps.Ideal
import Idealize.ShloMosaic.Lib.ValueIdx

noncomputable section

namespace Idealize.ShloMosaic.RowGather

open Idealize.ShloMosaic Idealize.ShloMosaic.ValueIdx

/-- The dimension numbers of a gather of whole rows, for an operand `[N, C]`, start indices `[R, 1]` and result `[R, C]`:
    the result's axis 1 is the offset axis, the operand's axis 0 is collapsed and is the one axis the start index names,
    the index vector is the start indices' axis 1, and a slice is one row, `[1, C]`. Their conditions `wf` are decided on
    a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(r, k)`: the operand at the row `idx[r, 0]`, read signed and clamped into `[0, N − 1]`,
    and column `k`. On the operand's axis 0 the start is the clamped index and the batching and offset parts are zero; on
    its axis 1 the start and the batching part are zero and the offset part is the result's coordinate `k`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    have hstart : (rowsDims N C R wf).start (ix2 r k) idx 1 = 0 := by
      unfold GatherDims.start
      rw [dif_neg (show (1 : Fin 2) ∉ (rowsDims N C R wf).startIndexMap from
        fun h => absurd (List.mem_singleton.mp h) (show ¬ ((1 : Fin 2) = 0) by decide))]
    have hbatch : (rowsDims N C R wf).batchCoord (ix2 r k) 1 = 0 :=
      GatherDims.batchCoord_eq_zero _ _ _ List.not_mem_nil
    have hoff : (rowsDims N C R wf).offCoord (ix2 r k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

/-- The dimension numbers of a gather of whole rows, for an operand `[N, C]`, start indices `[P, A, 1]` and result
    `[P, A, C]`: the result's axis 2 is the offset axis, the operand's axis 0 is collapsed and is the one axis the start
    index names, the index vector is the start indices' axis 2, and a slice is one row, `[1, C]`. Their conditions `wf`
    are decided on a program's literal shapes. -/
abbrev rowsDims3 (N C P A : Nat)
    (wf : GatherDims.WF ⟨2, ![N, C]⟩ ⟨3, ![P, A, 1]⟩ ⟨3, ![P, A, C]⟩ [2] [0] [] [0] [] 2 ![1, C]) :
    GatherDims ⟨2, ![N, C]⟩ ⟨3, ![P, A, 1]⟩ ⟨3, ![P, A, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(p, a, k)`: the operand at the row `idx[p, a, 0]`, read signed and clamped into
    `[0, N − 1]`, and column `k`. -/
theorem gather_rows3_apply {α : Type} {N C P A w : Nat} (hN : 0 < N)
    (wf : GatherDims.WF ⟨2, ![N, C]⟩ ⟨3, ![P, A, 1]⟩ ⟨3, ![P, A, C]⟩ [2] [0] [] [0] [] 2 ![1, C])
    (x : (⟨2, ![N, C]⟩ : Shape).Idx → α) (idx : IVec ⟨3, ![P, A, 1]⟩ w) (p : Fin P) (a : Fin A) (k : Fin C) :
    Host.gather (rowsDims3 N C P A wf) x idx (ix3 p a k)
      = x (ix2 (⟨min (idx (ix3 p a (0 : Fin 1))).toInt.toNat (N - 1), by omega⟩ : Fin N) k) := by
  unfold Host.gather
  congr 1
  funext c
  refine Fin.ext ?_
  match c with
  | ⟨0, _⟩ =>
    show (rowsDims3 N C P A wf).start (ix3 p a k) idx 0 + (rowsDims3 N C P A wf).batchCoord (ix3 p a k) 0
      + (rowsDims3 N C P A wf).offCoord (ix3 p a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N C P A wf).startIndexMap from List.mem_singleton.mpr rfl)]
    have hsi : (rowsDims3 N C P A wf).siIdx (ix3 p a k) ⟨List.idxOf (0 : Fin 2) (rowsDims3 N C P A wf).startIndexMap,
        List.idxOf_lt_length_iff.2 (List.mem_singleton.mpr rfl)⟩ = ix3 p a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N C P A wf).start (ix3 p a k) idx 1 + (rowsDims3 N C P A wf).batchCoord (ix3 p a k) 1
      + (rowsDims3 N C P A wf).offCoord (ix3 p a k) 1 = k.val
    have hstart : (rowsDims3 N C P A wf).start (ix3 p a k) idx 1 = 0 := by
      unfold GatherDims.start
      rw [dif_neg (show (1 : Fin 2) ∉ (rowsDims3 N C P A wf).startIndexMap from
        fun h => absurd (List.mem_singleton.mp h) (show ¬ ((1 : Fin 2) = 0) by decide))]
    have hbatch : (rowsDims3 N C P A wf).batchCoord (ix3 p a k) 1 = 0 :=
      GatherDims.batchCoord_eq_zero _ _ _ List.not_mem_nil
    have hoff : (rowsDims3 N C P A wf).offCoord (ix3 p a k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

end Idealize.ShloMosaic.RowGather

end
-- ==== Proof.LibGcnAggregate.lean ====
/-
  Scaling a segment sum of gathered rows by a per-node factor, before or after the sum.

  Nodes are numbered 0 … N − 1 and carry a weight `dis i` that is a nonnegative REAL (as an extended real: `0 ≤ dis i`,
  `dis i ≠ ⊤`).  Edge `e` (of R edges) is aggregated at node `row e` and gathers from node `col e`.  For features
  `h : [N, C]` the two arrangements

      agg₁[i, f] = ∑ over the edges e with row e = i of (dis[row e] · dis[col e]) · h[col e, f]      (weights per edge)
      agg₂[i, f] = dis[i] · ∑ over the edges e with row e = i of (dis · h)[col e, f]                 (weights per node)

  are equal entry by entry WHATEVER `h` holds, infinities included: on the edges of segment `i` the first factor
  `dis[row e]` is the constant `dis[i]`, multiplication of extended reals is associative, and a nonnegative finite factor
  distributes over every finite sum of extended reals.  The statement is over the host's operations: an accumulating
  scatter of whole rows (an update whose start index is outside `[0, N)` is dropped; the index is read signed and not
  clamped), gathers of whole rows and of single entries (the index read signed and CLAMPED into `[0, N − 1]`), and the
  "negative index counts from the end" select in front of a gather, which is the identity on the nonnegative indices a
  segment's edges have.

  Also here: the guarded reciprocal square root `if d > 0 then d^(-1/2) else 0` is a nonnegative real for every
  extended real `d` (`⊤ ↦ 0`), which is what makes `dis` such a weight with no assumption on the degrees.
-/
import Idealize.ShloMosaic.PureOps.Ideal
import Idealize.ShloMosaic.PureOps.Ideal.Laws
import Idealize.ShloMosaic.Lib.ValueIdx
import Idealize.ShloMosaic.Lib.Pipeline.Value
import proofs.«108978_j2104533975392_2_alg».proof.Proof.LibRowGather
import proofs.«108978_j2104533975392_2_alg».proof.Proof.LibRowMax

noncomputable section

namespace Cert.LibGcnAggregate

open Idealize.ShloMosaic Idealize.ShloMosaic.ValueIdx

/-! ## Extended reals -/

/-- A nonnegative finite factor distributes over a finite sum of extended reals, whatever the summands. -/
theorem mul_sum_of_nonneg {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- `if d > 0 then d^(-1/2) else 0` is a nonnegative real, for every extended real `d`. -/
theorem rsqrt_guard (d : EReal) :
    (0 : EReal) ≤ Scalar.select (Ideal.cmp .ogt d 0) (Ideal.rsqrt d) 0
      ∧ Scalar.select (Ideal.cmp .ogt d 0) (Ideal.rsqrt d) (0 : EReal) ≠ ⊤ := by
  show (0 : EReal) ≤ (if BitVec.ofBool (decide ((0 : EReal) < d)) = 1 then Ideal.rsqrt d else 0)
      ∧ (if BitVec.ofBool (decide ((0 : EReal) < d)) = 1 then Ideal.rsqrt d else (0 : EReal)) ≠ ⊤
  by_cases h : (0 : EReal) < d
  · have h1 : BitVec.ofBool (decide ((0 : EReal) < d)) = 1 := by simp [h]
    rw [if_pos h1]
    induction d using EReal.rec with
    | bot => exact absurd h (by simp)
    | top => exact ⟨by rw [Ideal.rsqrt_top], by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h0 : ¬ BitVec.ofBool (decide ((0 : EReal) < d)) = 1 := by simp [h]
    rw [if_neg h0]
    exact ⟨le_refl _, EReal.zero_ne_top⟩

/-- The host's guarded reciprocal square root of an array, `where(deg > 0, rsqrt(deg), 0)`, is a nonnegative real at
    every index. -/
theorem guarded_rsqrt_weight {s : Shape} (deg z : FVec Ideal s .f32) (hz : ∀ i, z i = 0) (i : s.Idx) :
    0 ≤ select (cmpf .ogt deg z) (Host.rsqrt deg) z i ∧ select (cmpf .ogt deg z) (Host.rsqrt deg) z i ≠ ⊤ := by
  show (0 : EReal) ≤ Scalar.select (Ideal.cmp .ogt (deg i) (z i)) (Ideal.rsqrt (deg i)) (z i)
      ∧ Scalar.select (Ideal.cmp .ogt (deg i) (z i)) (Ideal.rsqrt (deg i)) (z i) ≠ ⊤
  rw [hz i]
  exact rsqrt_guard _

/-! ## The host's layout operations read at an index -/

variable {α : Type}

/-- An `[a]` vector placed as the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a]` vector as a column across `b` lanes reads, at `(p, q)`, the vector at `p`. -/
theorem column_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 x) (ix2 p q) = x (ix1 p) :=
  (Cert.LibRowMax.broadcastInDim_a1_ab_apply _ h2 p q).trans (broadcastInDim_a_a1_apply x h1 p 0)

/-! ## A gather of single entries of a vector -/

/-- The dimension numbers of `x[idx]` for a vector `x : [N]` and start indices `[R, 1]`, result `[R]`: no offset
    axis, the operand's one axis collapsed and named by the start index. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of entries read at `r`: the vector at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entriesDims N R wf).start (ix1 r) idx 0 + (entriesDims N R wf).batchCoord (ix1 r) 0
      + (entriesDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N R wf).startIndexMap from List.mem_singleton.mpr rfl)]
    have hsi : (entriesDims N R wf).siIdx (ix1 r) ⟨List.idxOf (0 : Fin 1) (entriesDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## An accumulating scatter of whole rows -/

/-- The dimension numbers of `zeros([N, C]).at[idx].add(updates)` for start indices `[R, 1]` and updates `[R, C]`: the
    updates' axis 1 is the window axis, the operand's axis 0 is inserted and is the one axis the start index names. -/
abbrev rowsScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update row `e` that lands on the operand's row `t 0` has start index `t 0`, read signed. -/
theorem scatter_rows_hit {N C R w : Nat} (wf : ScatterDims.WF ⟨2, ![N, C]⟩ ⟨2, ![R, 1]⟩ ⟨2, ![R, C]⟩ [1] [0] [0] 1)
    (idx : IVec ⟨2, ![R, 1]⟩ w) (e : Fin R) (f : Fin C) (t : (⟨2, ![N, C]⟩ : Shape).Idx)
    (h : (rowsScatter N C R wf).resultIdx? (ix2 e f) idx = some t) :
    (idx (ix2 e (0 : Fin 1))).toInt = ((t 0).val : ℤ) := by
  have hs : (rowsScatter N C R wf).start (ix2 e f) idx 0 = (idx (ix2 e (0 : Fin 1))).toInt := by
    unfold ScatterDims.start
    rw [dif_pos (show (0 : Fin 2) ∈ (rowsScatter N C R wf).scatterDimsToOperandDims from List.mem_singleton.mpr rfl)]
    have hsi : (rowsScatter N C R wf).siIdx (ix2 e f) ⟨List.idxOf (0 : Fin 2) (rowsScatter N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowsScatter N C R wf).window (ix2 e f) 0 = 0 := by
    unfold ScatterDims.window
    rw [dif_neg]
    intro hmem
    have := (List.mem_filter.mp hmem).2
    simp at this
  unfold ScatterDims.resultIdx? at h
  split at h
  · rename_i hall
    have ht := Option.some.inj h
    have h0 : ((rowsScatter N C R wf).start (ix2 e f) idx 0 + ((rowsScatter N C R wf).window (ix2 e f) 0 : ℤ)).toNat
        = (t 0).val := congrArg Fin.val (congrFun ht 0)
    have hpos := (hall 0).1
    rw [hs, hw] at h0 hpos
    omega
  · exact absurd h (by simp)

/-- An accumulating scatter into zeros, entry `t`: if every update that lands on `t` is `c` times the matching update
    of a second scatter, `c` a nonnegative real, then the entry is `c` times the second scatter's entry. -/
theorem scatterAdd_scaled {s si su : Shape} (d : ScatterDims s si su) {w : Nat} (idx : IVec si w)
    (A B : su.Idx → EReal) (t : s.Idx) {c : EReal} (hc : 0 ≤ c) (hc' : c ≠ ⊤)
    (hAB : ∀ u, d.resultIdx? u idx = some t → A u = c * B u) :
    Ideal.hostScatterAdd d (fun _ => 0) idx A t = c * Ideal.hostScatterAdd d (fun _ => 0) idx B t := by
  unfold Ideal.hostScatterAdd
  rw [zero_add, zero_add, mul_sum_of_nonneg _ _ hc hc']
  exact Finset.sum_congr rfl fun u hu => hAB u (Finset.mem_filter.mp hu).2

/-- A start index that is a node number, read signed and clamped into `[0, N − 1]`, is that node. -/
theorem clamp_eq {N : ℕ} (b : BitVec 32) (i : Fin N) (hb : b.toInt = (i.val : ℤ))
    (hlt : min b.toInt.toNat (N - 1) < N) : (⟨min b.toInt.toNat (N - 1), hlt⟩ : Fin N) = i := by
  apply Fin.ext
  show min b.toInt.toNat (N - 1) = i.val
  rw [hb]
  have := i.isLt
  omega

/-! ## The two arrangements of the aggregation -/

section Aggregate

variable {N C R : ℕ}

/-- THE AGGREGATION, WEIGHTED PER EDGE OR PER NODE.  `dis` a nonnegative real weight per node; `row` the node each edge
    is aggregated at (used as it is by the scatter; in front of the gather of `dis` it passes the select that replaces
    a negative index by `X`, which no edge of a segment meets); `colw` the start indices every gather by column uses.
    Scattering the rows `(dis[row e] · dis[col e]) · h[col e, ·]` is, entry by entry, `dis[i]` times scattering the rows
    `(dis · h)[col e, ·]`. -/
theorem aggregate_eq (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbz : (⟨0, ![]⟩ : Shape).BroadcastsInDim ⟨1, ![R]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (dis : FVec Ideal ⟨1, ![N]⟩ .f32) (hdis : ∀ i, 0 ≤ dis i ∧ dis i ≠ ⊤)
    (row X : IVec ⟨1, ![R]⟩ 32) (colw : IVec ⟨2, ![R, 1]⟩ 32) (h : FVec Ideal ⟨2, ![N, C]⟩ .f32) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf
          (broadcastInDim ⟨2, ![R, C]⟩ ![0, 1] hbRC
            (broadcastInDim ⟨2, ![R, 1]⟩ ![0] hbR
              (mulf
                (Host.gather (entriesDims N R wfe) dis
                  (broadcastInDim ⟨2, ![R, 1]⟩ ![0] hbR
                    (select (cmpi .slt row (broadcastInDim ⟨1, ![R]⟩ ![] hbz (constantI ⟨0, ![]⟩ 32 0#32))) X row)))
                (Host.gather (entriesDims N R wfe) dis colw))))
          (Host.gather (Idealize.ShloMosaic.RowGather.rowsDims N C R wfg) h colw))
      = mulf (broadcastInDim ⟨2, ![N, C]⟩ ![0, 1] hbNC (broadcastInDim ⟨2, ![N, 1]⟩ ![0] hbN dis))
          (Host.scatterAdd (F := Ideal) (rowsScatter N C R wfs)
            (broadcastInDim ⟨2, ![N, C]⟩ ![] hb0 (constant ⟨0, ![]⟩ .f32 0x00000000#32))
            (broadcastInDim ⟨2, ![R, 1]⟩ ![0] hbR row)
            (Host.gather (Idealize.ShloMosaic.RowGather.rowsDims N C R wfg)
              (mulf (broadcastInDim ⟨2, ![N, C]⟩ ![0, 1] hbNC (broadcastInDim ⟨2, ![N, 1]⟩ ![0] hbN dis)) h) colw)) := by
  funext j
  obtain ⟨i, f, rfl⟩ : ∃ (i : Fin N) (f : Fin C), j = ix2 i f := ⟨j 0, j 1, eq_ix2 j⟩
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wfs) (fun _ => 0) _ _ (ix2 i f)
    = (broadcastInDim ⟨2, ![N, C]⟩ ![0, 1] hbNC (broadcastInDim ⟨2, ![N, 1]⟩ ![0] hbN dis)) (ix2 i f)
      * Ideal.hostScatterAdd (rowsScatter N C R wfs) (fun _ => 0) _ _ (ix2 i f)
  rw [column_apply dis hbN hbNC i f]
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's row, read signed
  have hrow : (row (ix1 e)).toInt = (i.val : ℤ) := by
    have := scatter_rows_hit wfs _ e g _ hu
    rwa [broadcastInDim_a_a1_apply row hbR e 0] at this
  -- so the negative-index select keeps it, and the clamp keeps it
  have hsel : (select (cmpi .slt row (broadcastInDim ⟨1, ![R]⟩ ![] hbz (constantI ⟨0, ![]⟩ 32 0#32))) X row) (ix1 e)
      = row (ix1 e) := by
    show Scalar.select (BitVec.ofBool ((row (ix1 e)).slt 0#32)) (X (ix1 e)) (row (ix1 e)) = row (ix1 e)
    have hns : (row (ix1 e)).slt 0#32 = false := by
      rw [BitVec.slt_eq_decide, BitVec.toInt_zero, hrow]
      exact decide_eq_false (by omega)
    rw [hns]
    rfl
  show _ * _ = _ * _
  rw [Cert.LibRowMax.broadcastInDim_a1_ab_apply _ hbRC e g, broadcastInDim_a_a1_apply _ hbR e 0,
    Idealize.ShloMosaic.RowGather.gather_rows_apply hN wfg h colw e g,
    Idealize.ShloMosaic.RowGather.gather_rows_apply hN wfg _ colw e g]
  show (_ * _) * _ = _ * (_ * _)
  rw [gather_entries_apply hN wfe dis _ e, gather_entries_apply hN wfe dis colw e, column_apply dis hbN hbNC]
  have hval : ((broadcastInDim ⟨2, ![R, 1]⟩ ![0] hbR
      (select (cmpi .slt row (broadcastInDim ⟨1, ![R]⟩ ![] hbz (constantI ⟨0, ![]⟩ 32 0#32))) X row))
        (ix2 e (0 : Fin 1))).toInt = (i.val : ℤ) := by
    rw [broadcastInDim_a_a1_apply _ hbR e 0, hsel]; exact hrow
  rw [clamp_eq _ i hval]
  exact mul_assoc _ _ _

end Aggregate

end Cert.LibGcnAggregate

end
-- ==== Proof.LibScatterEdges.lean ====
/-
  The accumulating scatter of whole rows into zeros, read entry by entry.

  The operand is `zeros([N, C])`, the start indices are one row number per edge (`[R, 1]`, read signed and not
  clamped) and the updates are one row of `C` features per edge (`[R, C]`).  Update element `(e, g)` lands on
  operand element `(idx[e, 0], g)` when that row number is in `[0, N)`, and is dropped otherwise: on the operand's
  row axis the start is the edge's index and the window coordinate is `0`; on the feature axis the start is `0` and
  the window coordinate is `g`.  So update `(e, g)` lands on `(i, f)` exactly when `idx[e, 0] = i` and `g = f`,
  and entry `(i, f)` of the result is the sum, over the edges whose start index reads `i`, of the update at `(e, f)`.
-/
import proofs.«108978_j2104533975392_2_alg».proof.Proof.LibGcnAggregate

noncomputable section

namespace Cert.Sgc.ScatterEdges

open Idealize.ShloMosaic Idealize.ShloMosaic.ValueIdx Cert.LibGcnAggregate

variable {N C R w : ℕ}

/-- On the operand's row axis the window of update `(e, g)` starts at the edge's start index, read signed. -/
theorem start_row (wf : ScatterDims.WF ⟨2, ![N, C]⟩ ⟨2, ![R, 1]⟩ ⟨2, ![R, C]⟩ [1] [0] [0] 1)
    (idx : IVec ⟨2, ![R, 1]⟩ w) (e : Fin R) (g : Fin C) :
    (rowsScatter N C R wf).start (ix2 e g) idx 0 = (idx (ix2 e (0 : Fin 1))).toInt := by
  unfold ScatterDims.start
  rw [dif_pos (show (0 : Fin 2) ∈ (rowsScatter N C R wf).scatterDimsToOperandDims from List.mem_singleton.mpr rfl)]
  have hsi : (rowsScatter N C R wf).siIdx (ix2 e g) ⟨List.idxOf (0 : Fin 2) (rowsScatter N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis, which the start index does not name, the window starts at `0`. -/
theorem start_col (wf : ScatterDims.WF ⟨2, ![N, C]⟩ ⟨2, ![R, 1]⟩ ⟨2, ![R, C]⟩ [1] [0] [0] 1)
    (idx : IVec ⟨2, ![R, 1]⟩ w) (e : Fin R) (g : Fin C) :
    (rowsScatter N C R wf).start (ix2 e g) idx 1 = 0 := by
  unfold ScatterDims.start
  rw [dif_neg (show (1 : Fin 2) ∉ (rowsScatter N C R wf).scatterDimsToOperandDims from
    fun h => absurd (List.mem_singleton.mp h) (show ¬ ((1 : Fin 2) = 0) by decide))]

/-- The row axis is an inserted window axis: its window coordinate is `0`. -/
theorem window_row (wf : ScatterDims.WF ⟨2, ![N, C]⟩ ⟨2, ![R, 1]⟩ ⟨2, ![R, C]⟩ [1] [0] [0] 1)
    (e : Fin R) (g : Fin C) : (rowsScatter N C R wf).window (ix2 e g) 0 = 0 := by
  unfold ScatterDims.window
  rw [dif_neg]
  intro hmem
  have := (List.mem_filter.mp hmem).2
  simp at this

/-- The feature axis is the operand's one kept axis: its window coordinate is the update's feature coordinate. -/
theorem window_col (wf : ScatterDims.WF ⟨2, ![N, C]⟩ ⟨2, ![R, 1]⟩ ⟨2, ![R, C]⟩ [1] [0] [0] 1)
    (e : Fin R) (g : Fin C) : (rowsScatter N C R wf).window (ix2 e g) 1 = g.val := by
  unfold ScatterDims.window
  have hmem : (1 : Fin 2) ∈ (rowsScatter N C R wf).sKept := by
    refine List.mem_filter.mpr ⟨List.mem_finRange _, ?_⟩
    simp
  rw [dif_pos hmem]
  rfl

/-- WHERE AN UPDATE LANDS.  Update `(e, g)` lands on operand element `(i, f)` exactly when the edge's start index,
    read signed, is the row `i`, and the feature coordinates agree. -/
theorem resultIdx_eq_some_iff (wf : ScatterDims.WF ⟨2, ![N, C]⟩ ⟨2, ![R, 1]⟩ ⟨2, ![R, C]⟩ [1] [0] [0] 1)
    (idx : IVec ⟨2, ![R, 1]⟩ w) (e : Fin R) (g : Fin C) (i : Fin N) (f : Fin C) :
    (rowsScatter N C R wf).resultIdx? (ix2 e g) idx = some (ix2 i f)
      ↔ (idx (ix2 e (0 : Fin 1))).toInt = (i.val : ℤ) ∧ g = f := by
  have hs0 := start_row wf idx e g
  have hs1 := start_col wf idx e g
  have hw0 := window_row wf e g
  have hw1 := window_col wf e g
  constructor
  · intro h
    unfold ScatterDims.resultIdx? at h
    split at h
    · rename_i hall
      have ht := Option.some.inj h
      have h0 : ((rowsScatter N C R wf).start (ix2 e g) idx 0
          + ((rowsScatter N C R wf).window (ix2 e g) 0 : ℤ)).toNat = i.val := congrArg Fin.val (congrFun ht 0)
      have h1 : ((rowsScatter N C R wf).start (ix2 e g) idx 1
          + ((rowsScatter N C R wf).window (ix2 e g) 1 : ℤ)).toNat = f.val := congrArg Fin.val (congrFun ht 1)
      have hpos := (hall 0).1
      rw [hs0, hw0] at h0 hpos
      rw [hs1, hw1] at h1
      refine ⟨by omega, Fin.ext ?_⟩
      omega
    · exact absurd h (by simp)
  · rintro ⟨hi, rfl⟩
    have hall : ∀ a, 0 ≤ (rowsScatter N C R wf).start (ix2 e g) idx a + ((rowsScatter N C R wf).window (ix2 e g) a : ℤ)
        ∧ (rowsScatter N C R wf).start (ix2 e g) idx a + ((rowsScatter N C R wf).window (ix2 e g) a : ℤ)
          < ((⟨2, ![N, C]⟩ : Shape).size a : ℤ) := by
      intro a
      match a with
      | ⟨0, _⟩ =>
        show 0 ≤ (rowsScatter N C R wf).start (ix2 e g) idx 0 + ((rowsScatter N C R wf).window (ix2 e g) 0 : ℤ)
          ∧ (rowsScatter N C R wf).start (ix2 e g) idx 0 + ((rowsScatter N C R wf).window (ix2 e g) 0 : ℤ) < (N : ℤ)
        rw [hs0, hw0, hi]
        have := i.isLt
        omega
      | ⟨1, _⟩ =>
        show 0 ≤ (rowsScatter N C R wf).start (ix2 e g) idx 1 + ((rowsScatter N C R wf).window (ix2 e g) 1 : ℤ)
          ∧ (rowsScatter N C R wf).start (ix2 e g) idx 1 + ((rowsScatter N C R wf).window (ix2 e g) 1 : ℤ) < (C : ℤ)
        rw [hs1, hw1]
        have := g.isLt
        omega
    unfold ScatterDims.resultIdx?
    rw [dif_pos hall]
    congr 1
    funext a
    refine Fin.ext ?_
    match a with
    | ⟨0, _⟩ =>
      show ((rowsScatter N C R wf).start (ix2 e g) idx 0
          + ((rowsScatter N C R wf).window (ix2 e g) 0 : ℤ)).toNat = i.val
      rw [hs0, hw0, hi]
      omega
    | ⟨1, _⟩ =>
      show ((rowsScatter N C R wf).start (ix2 e g) idx 1
          + ((rowsScatter N C R wf).window (ix2 e g) 1 : ℤ)).toNat = g.val
      rw [hs1, hw1]
      omega

/-- THE SCATTER READ AT `(i, f)`: the sum, over the edges whose start index reads `i`, of the update at `(e, f)`. -/
theorem scatter_rows_entry (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (i : Fin N) (f : Fin C) :
    Ideal.hostScatterAdd (rowsScatter N C R wf) (fun _ => 0) idx upd (ix2 i f)
      = 0 + ∑ e ∈ Finset.univ.filter (fun e : Fin R => (idx (ix2 e (0 : Fin 1))).toInt = (i.val : ℤ)),
          upd (ix2 e f) := by
  unfold Ideal.hostScatterAdd
  congr 1
  refine Finset.sum_nbij' (fun u => u 0) (fun e => ix2 e f) ?_ ?_ ?_ ?_ ?_
  · intro u hu
    have hu' := (Finset.mem_filter.mp hu).2
    rw [eq_ix2 u] at hu'
    exact Finset.mem_filter.mpr ⟨Finset.mem_univ _, ((resultIdx_eq_some_iff wf idx _ _ i f).mp hu').1⟩
  · intro e he
    have he' := (Finset.mem_filter.mp he).2
    exact Finset.mem_filter.mpr ⟨Finset.mem_univ _, (resultIdx_eq_some_iff wf idx e f i f).mpr ⟨he', rfl⟩⟩
  · intro u hu
    have hu' := (Finset.mem_filter.mp hu).2
    rw [eq_ix2 u] at hu'
    have hg := ((resultIdx_eq_some_iff wf idx _ _ i f).mp hu').2
    show ix2 (u 0) f = u
    rw [← hg]
    exact (eq_ix2 u).symm
  · intro e _
    rfl
  · intro u hu
    have hu' := (Finset.mem_filter.mp hu).2
    rw [eq_ix2 u] at hu'
    have hg := ((resultIdx_eq_some_iff wf idx _ _ i f).mp hu').2
    show upd u = upd (ix2 (u 0) f)
    rw [← hg]
    exact congrArg upd (eq_ix2 u)

end Cert.Sgc.ScatterEdges

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«108978_j2104533975392_2_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.LibFeatureFold.lean ====
/-
  The nine-feature fold. For real data, the contraction of the masked feature vector
  [x, y, z, e, x - cx, y - cy, cx, cy, zc] with nine real weights equals the mask times a five-term
  combination with folded weights (w0 + w4, w1 + w5, w6 - w4, w7 - w5) plus a per-pillar offset; both
  are the same real number. Also: extended reals that are reals are closed under +, -, *, negation,
  max, min and finite sums, and the coercion of a finite real sum is the sum of the coercions.
-/
import Idealize.ShloMosaic.PureOps.Ideal
import Mathlib.Algebra.BigOperators.Fin
import Mathlib.Tactic.Ring

noncomputable section

namespace Cert.Lib.FeatureFold

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division of a real by a nonzero real is a real. -/
theorem IsReal.div_coe {a : EReal} (ha : IsReal a) {n : ℝ} (hn : n ≠ 0) : IsReal (Ideal.div a (n : EReal)) := by
  rw [Ideal.div_coe hn]; exact ha.mul (isReal_coe _)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of two real vectors, read on the extended reals, is the real contraction. -/
theorem coe_sum_mul {ι : Type*} (s : Finset ι) (f g : ι → ℝ) :
    (∑ i ∈ s, (f i : EReal) * (g i : EReal)) = ((∑ i ∈ s, f i * g i : ℝ) : EReal) := by
  simp only [← EReal.coe_mul, ← coe_sum]

/-! ### The fold -/

/-- A sum over nine indices, written out. -/
theorem sum_fin9 {M : Type*} [AddCommMonoid M] (g : Fin 9 → M) :
    ∑ i, g i = g 0 + g 1 + g 2 + g 3 + g 4 + g 5 + g 6 + g 7 + g 8 := by
  rw [Fin.sum_univ_castSucc, Fin.sum_univ_eight]
  rfl

/-- The folded form as a real: mask times (five folded terms plus the per-pillar offset). -/
def foldR (x y z e cx cy zc mk : ℝ) (w : Fin 9 → ℝ) : ℝ :=
  mk * ((((x * (w 0 + w 4) + y * (w 1 + w 5)) + z * w 2) + e * w 3)
    + ((cx * (w 6 - w 4) + cy * (w 7 - w 5)) + zc * w 8))

/-- The nine-term contraction of the masked features with the weights, over the reals. -/
theorem concat_real (x y z e cx cy zc mk : ℝ) (w : Fin 9 → ℝ) :
    (∑ i : Fin 9, ((![x, y, z, e, x - cx, y - cy, cx, cy, zc] : Fin 9 → ℝ) i * mk) * w i)
      = foldR x y z e cx cy zc mk w := by
  rw [sum_fin9]
  show (x * mk) * w 0 + (y * mk) * w 1 + (z * mk) * w 2 + (e * mk) * w 3 + ((x - cx) * mk) * w 4
      + ((y - cy) * mk) * w 5 + (cx * mk) * w 6 + (cy * mk) * w 7 + (zc * mk) * w 8 = _
  unfold foldR
  ring

/-- The nine-term contraction on the extended reals is the real folded value. -/
theorem concat_ereal (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = ((foldR x y z e cx cy zc mk w : ℝ) : EReal) := by
  rw [sum_fin9]
  show ((x : EReal) * (mk : EReal)) * (w 0 : EReal) + ((y : EReal) * (mk : EReal)) * (w 1 : EReal)
      + ((z : EReal) * (mk : EReal)) * (w 2 : EReal) + ((e : EReal) * (mk : EReal)) * (w 3 : EReal)
      + (((x : EReal) - (cx : EReal)) * (mk : EReal)) * (w 4 : EReal)
      + (((y : EReal) - (cy : EReal)) * (mk : EReal)) * (w 5 : EReal)
      + ((cx : EReal) * (mk : EReal)) * (w 6 : EReal) + ((cy : EReal) * (mk : EReal)) * (w 7 : EReal)
      + ((zc : EReal) * (mk : EReal)) * (w 8 : EReal) = _
  simp only [← EReal.coe_mul, ← EReal.coe_add, ← EReal.coe_sub]
  exact congrArg _ (by unfold foldR; ring)

/-- The folded spelling on the extended reals is the same real. -/
theorem folded_ereal (x y z e cx cy zc mk : ℝ) (w : Fin 9 → ℝ) :
    (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal)))
      = ((foldR x y z e cx cy zc mk w : ℝ) : EReal) := by
  simp only [← EReal.coe_mul, ← EReal.coe_add, ← EReal.coe_sub]
  rfl

/-- The fold: the nine-term contraction equals the folded spelling, on the extended reals. -/
theorem concat_eq_folded (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal))) :=
  (concat_ereal x y z e cx cy zc mk w).trans (folded_ereal x y z e cx cy zc mk w).symm

/-- The folded value is a real. -/
theorem concat_isReal (x y z e cx cy zc mk : ℝ) (w : Fin 9 → ℝ) :
    IsReal (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal)) :=
  ⟨_, concat_ereal x y z e cx cy zc mk w⟩

end Cert.Lib.FeatureFold

end
-- ==== Proof.LibGraphLayer.lean ====
/-
  One graph layer in two orders, on the extended reals.

  A graph layer aggregates, at every node `i`, the rows of a feature matrix `h` along the edges that end at `i`, each
  row weighted by its edge's coefficient, and multiplies by a weight matrix `W`.  Aggregating first and multiplying
  afterwards,

      (∑ over edges e into i of coef e · h[src e, ·]) · W,

  and multiplying first and aggregating afterwards,

      ∑ over edges e into i of coef e · (h · W)[src e, ·],

  are the same matrix when every coefficient, every feature and every weight is a real number: over the reals a
  constant factor moves across a finite sum and two finite sums exchange.  On the extended reals both steps fail at
  the infinities, which is why realness is assumed.

  Here: the accumulating scatter of coefficient-weighted gathered rows read at one entry as a sum over the edges
  into the node; the exchange over the reals and on real-valued extended reals; and the two orders of the layer as
  one equation between the host's scatter, gather and matrix product.
-/
import proofs.«108978_j2104533975392_2_alg».proof.Proof.LibScatterEdges
import proofs.«108978_j2104533975392_2_alg».proof.Proof.LibProduct
import proofs.«108978_j2104533975392_2_alg».proof.Proof.LibFeatureFold

noncomputable section

namespace Cert.GraphLayer

open Idealize.ShloMosaic Idealize.ShloMosaic.ValueIdx Cert.LibGcnAggregate Cert.Lib.FeatureFold Cert.LibProduct
open Idealize.ShloMosaic.RowGather

variable {N C O R : ℕ}

/-- The node an edge's start index names: the index read signed and clamped into `[0, N − 1]`. -/
def node (hN : 0 < N) (idx : IVec ⟨2, ![R, 1]⟩ 32) (e : Fin R) : Fin N :=
  ⟨min (idx (ix2 e (0 : Fin 1))).toInt.toNat (N - 1), by omega⟩

/-- The edges whose end index reads the node `i`. -/
def into (idx : IVec ⟨2, ![R, 1]⟩ 32) (i : Fin N) : Finset (Fin R) :=
  Finset.univ.filter fun e : Fin R => (idx (ix2 e (0 : Fin 1))).toInt = (i.val : ℤ)

/-- THE AGGREGATION AT AN ENTRY.  Scattering into zeros, at the edges' end indices, the gathered rows `h[src e, ·]`
    each multiplied by its edge's coefficient gives, at `(i, f)`, the sum over the edges into `i` of
    `coef e · h[src e, f]`. -/
theorem aggregate_entry (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (hb0 : (⟨0, ![]⟩ : Shape).BroadcastsInDim ⟨2, ![N, C]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (coef : FVec Ideal ⟨1, ![R]⟩ .f32) (dst src : IVec ⟨2, ![R, 1]⟩ 32) (h : FVec Ideal ⟨2, ![N, C]⟩ .f32)
    (i : Fin N) (f : Fin C) :
    Host.scatterAdd (F := Ideal) (rowsScatter N C R wfs)
        (broadcastInDim ⟨2, ![N, C]⟩ ![] hb0 (constant ⟨0, ![]⟩ .f32 0x00000000#32)) dst
        (mulf (broadcastInDim ⟨2, ![R, C]⟩ ![0, 1] hbRC (broadcastInDim ⟨2, ![R, 1]⟩ ![0] hbR coef))
          (Host.gather (rowsDims N C R wfg) h src)) (ix2 i f)
      = 0 + ∑ e ∈ into dst i, coef (ix1 e) * h (ix2 (node hN src e) f) := by
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wfs) (fun _ => 0) _ _ (ix2 i f) = _
  rw [Cert.Sgc.ScatterEdges.scatter_rows_entry wfs dst _ i f]
  refine congrArg (0 + ·) (Finset.sum_congr rfl fun e _ => ?_)
  show _ * _ = _
  rw [Cert.LibRowMax.broadcastInDim_a1_ab_apply _ hbRC e f, broadcastInDim_a_a1_apply _ hbR e 0,
    gather_rows_apply hN wfg h src e f]
  rfl

/-- The exchange over the reals. -/
theorem exchange_real (E : Finset (Fin R)) (γ : Fin R → Fin N) (a : Fin R → ℝ) (x : Fin N → Fin C → ℝ)
    (W : Fin C → Fin O → ℝ) (c : Fin O) :
    ∑ k : Fin C, (∑ e ∈ E, a e * x (γ e) k) * W k c = ∑ e ∈ E, a e * ∑ k : Fin C, x (γ e) k * W k c := by
  simp only [Finset.mul_sum, Finset.sum_mul]
  rw [Finset.sum_comm]
  refine Finset.sum_congr rfl fun e _ => Finset.sum_congr rfl fun k _ => ?_
  ring

/-- THE EXCHANGE on the extended reals, every datum a real.  The leading `0 +` is the zero an accumulation starts
    from. -/
theorem exchange (E : Finset (Fin R)) (γ : Fin R → Fin N) (a : Fin R → EReal) (ha : ∀ e, IsReal (a e))
    (x : Fin N → Fin C → EReal) (hx : ∀ n k, IsReal (x n k)) (W : Fin C → Fin O → EReal)
    (hW : ∀ k c, IsReal (W k c)) (c : Fin O) :
    ∑ k : Fin C, (0 + ∑ e ∈ E, a e * x (γ e) k) * W k c
      = 0 + ∑ e ∈ E, a e * ∑ k : Fin C, x (γ e) k * W k c := by
  choose ar har using ha
  choose xr hxr using hx
  choose Wr hWr using hW
  obtain rfl : a = fun e => (ar e : EReal) := funext har
  obtain rfl : x = fun n k => (xr n k : EReal) := funext fun n => funext fun k => hxr n k
  obtain rfl : W = fun k c => (Wr k c : EReal) := funext fun k => funext fun c => hWr k c
  simp only [zero_add, ← EReal.coe_mul, ← coe_sum]
  exact congrArg _ (exchange_real E γ ar xr Wr c)

/-- THE LAYER IN TWO ORDERS.  For real coefficients, features and weights, aggregating the rows of `h` and then
    multiplying by `W` is multiplying `h` by `W` and then aggregating. -/
theorem aggregate_then_product (hN : 0 < N)
    (wfsC : ScatterDims.WF ⟨2, ![N, C]⟩ ⟨2, ![R, 1]⟩ ⟨2, ![R, C]⟩ [1] [0] [0] 1)
    (wfgC : GatherDims.WF ⟨2, ![N, C]⟩ ⟨2, ![R, 1]⟩ ⟨2, ![R, C]⟩ [1] [0] [] [0] [] 1 ![1, C])
    (hb0C : (⟨0, ![]⟩ : Shape).BroadcastsInDim ⟨2, ![N, C]⟩ ![])
    (hbRC : (⟨2, ![R, 1]⟩ : Shape).BroadcastsInDim ⟨2, ![R, C]⟩ ![0, 1])
    (wfsO : ScatterDims.WF ⟨2, ![N, O]⟩ ⟨2, ![R, 1]⟩ ⟨2, ![R, O]⟩ [1] [0] [0] 1)
    (wfgO : GatherDims.WF ⟨2, ![N, O]⟩ ⟨2, ![R, 1]⟩ ⟨2, ![R, O]⟩ [1] [0] [] [0] [] 1 ![1, O])
    (hb0O : (⟨0, ![]⟩ : Shape).BroadcastsInDim ⟨2, ![N, O]⟩ ![])
    (hbRO : (⟨2, ![R, 1]⟩ : Shape).BroadcastsInDim ⟨2, ![R, O]⟩ ![0, 1])
    (hbR : (⟨1, ![R]⟩ : Shape).BroadcastsInDim ⟨2, ![R, 1]⟩ ![0])
    (coef : FVec Ideal ⟨1, ![R]⟩ .f32) (hcoef : ∀ e, IsReal (coef e))
    (dst src : IVec ⟨2, ![R, 1]⟩ 32)
    (h : FVec Ideal ⟨2, ![N, C]⟩ .f32) (hh : ∀ j, IsReal (h j))
    (W : FVec Ideal ⟨2, ![C, O]⟩ .f32) (hW : ∀ j, IsReal (W j)) :
    product
        (Host.scatterAdd (F := Ideal) (rowsScatter N C R wfsC)
          (broadcastInDim ⟨2, ![N, C]⟩ ![] hb0C (constant ⟨0, ![]⟩ .f32 0x00000000#32)) dst
          (mulf (broadcastInDim ⟨2, ![R, C]⟩ ![0, 1] hbRC (broadcastInDim ⟨2, ![R, 1]⟩ ![0] hbR coef))
            (Host.gather (rowsDims N C R wfgC) h src))) W
      = Host.scatterAdd (F := Ideal) (rowsScatter N O R wfsO)
          (broadcastInDim ⟨2, ![N, O]⟩ ![] hb0O (constant ⟨0, ![]⟩ .f32 0x00000000#32)) dst
          (mulf (broadcastInDim ⟨2, ![R, O]⟩ ![0, 1] hbRO (broadcastInDim ⟨2, ![R, 1]⟩ ![0] hbR coef))
            (Host.gather (rowsDims N O R wfgO) (product h W) src)) := by
  funext j
  obtain ⟨i, c, rfl⟩ : ∃ (i : Fin N) (c : Fin O), j = ix2 i c := ⟨j 0, j 1, eq_ix2 j⟩
  rw [product_apply, aggregate_entry hN wfsO wfgO hb0O hbR hbRO coef dst src (product h W) i c]
  simp only [aggregate_entry hN wfsC wfgC hb0C hbR hbRC coef dst src h i, product_apply]
  exact exchange (into dst i) (node hN src) (fun e => coef (ix1 e)) (fun e => hcoef _)
    (fun n k => h (ix2 n k)) (fun n k => hh _) (fun k c => W (ix2 k c)) (fun k c => hW _) c

end Cert.GraphLayer

end
-- ==== Proof.SpecReal.lean ====
/-
  Realness of the network's edge coefficients and decoded features.

  * The guarded inverse square root of ANY degree vector is a nonnegative real at every node: where the degree is
    positive its inverse square root is a nonnegative extended real below `⊤`, elsewhere the value is `0`.  Nothing is
    asked of the degree itself, so no finiteness of the edge data is needed.
  * An edge coefficient, the product of two gathered node weights, is a real when every node weight is.
  * A decoded feature is a finite sum of products of the decoder's inputs plus a bias entry: a real when those are.
-/
import proofs.«108978_j2104533975392_2_alg».proof.Proof.Spec
import proofs.«108978_j2104533975392_2_alg».proof.Proof.LibGcnAggregate
import proofs.«108978_j2104533975392_2_alg».proof.Proof.LibProduct
import proofs.«108978_j2104533975392_2_alg».proof.Proof.LibFeatureFold
import Idealize.ShloMosaic.PureOps.Ideal

noncomputable section

namespace Cert.Spec

open Cert.ReferenceIdeal Cert.ReferenceIdeal.Gen Idealize.ShloMosaic Idealize.ShloMosaic.ValueIdx
open Cert.Lib.FeatureFold Cert.LibProduct

/-- A nonnegative extended real below `⊤` is a real. -/
theorem isReal_of_nonneg {a : EReal} (h0 : 0 ≤ a) (ht : a ≠ ⊤) : IsReal a :=
  ⟨a.toReal, (EReal.coe_toReal ht (ne_of_gt (lt_of_lt_of_le EReal.bot_lt_zero h0))).symm⟩

/-- The guarded inverse square root of any degree vector is a real at every node. -/
theorem guard_rsqrt_real (d : FVec Ideal S50000 .f32) (i : S50000.Idx) :
    IsReal (guard (F := Ideal) (cmpf .ogt d (broadcastInDim S50000 ![] bcast_S_S50000 (constant S_ .f32 0x00000000#32)))
      (Host.rsqrt d) zeroScalar i) := by
  have h := Cert.LibGcnAggregate.guarded_rsqrt_weight d
    (broadcastInDim S50000 ![] bcast_S_S50000 (constant (F := Ideal) S_ .f32 0x00000000#32))
    (fun _ => Ideal.ofBits_zero_f32) i
  exact isReal_of_nonneg h.1 h.2

theorem dinv_real (x1 : IVec S2x1600000 32) (i : S50000.Idx) : IsReal (dinv (F := Ideal) x1 i) := by
  unfold dinv positive rsqrtDeg
  exact guard_rsqrt_real _ i

/-- An edge coefficient from real node weights is a real. -/
theorem coefOf_real (w : FVec Ideal S50000 .f32) (hw : ∀ i, IsReal (w i)) (s d : IVec S1650000 32) (e : S1650000.Idx) :
    IsReal (coefOf (F := Ideal) w s d e) := by
  obtain ⟨r, rfl⟩ : ∃ r : Fin 1650000, e = ix1 r := ⟨e 0, eq_ix1 e⟩
  have gathered : ∀ idx : IVec S1650000x1 32,
      IsReal (Host.gather gather_S50000_S1650000x1_S1650000_n_0_n_n_0_1_1 w idx (ix1 r)) := by
    intro idx
    have e := Cert.LibGcnAggregate.gather_entries_apply (N := 50000) (R := 1650000) (by norm_num)
      gather_S50000_S1650000x1_S1650000_n_0_n_n_0_1_1.wf w idx r
    have t : IsReal (Host.gather (Cert.LibGcnAggregate.entriesDims 50000 1650000
        gather_S50000_S1650000x1_S1650000_n_0_n_n_0_1_1.wf) w idx (ix1 r)) := by
      rw [e]
      exact hw _
    exact t
  unfold coefOf
  show IsReal (_ * _)
  exact IsReal.mul (gathered _) (gathered _)

/-- Every edge coefficient of the network is a real. -/
theorem coef_real (x1 : IVec S2x1600000 32) (e : S1650000.Idx) : IsReal (coef (F := Ideal) x1 e) := by
  unfold coef
  exact coefOf_real _ (dinv_real x1) _ _ e

/-- The product with the bias row added is the decoder's row: the host's `dot_general` is the product. -/
theorem decoder_row (x0 : FVec Ideal Cert.ReferenceIdeal.S1x64 .f32) (x2 : FVec Ideal Cert.ReferenceIdeal.S64x800000 .f32)
    (x3 : FVec Ideal Cert.ReferenceIdeal.S800000 .f32) :
    (fun i => product x0 x2 i + Cert.Spec.biasRow (F := Ideal) x3 i) = Cert.Spec.decoderRow (F := Ideal) x0 x2 x3 := by
  have e : Host.dotGeneral (F := Ideal) Cert.ReferenceIdeal.dot_S1x64_S64x800000_S1x800000_1_0_0_1_n_n none x0 x2 = product x0 x2 :=
    dotGeneral_eq _ none _ x0 x2
  unfold Cert.Spec.decoderRow
  rw [e]
  rfl

/-- Every decoded feature is a real when the decoder's inputs are: a finite sum of products of reals plus a real. -/
theorem decoded_real (x0 : FVec Ideal Cert.ReferenceIdeal.S1x64 .f32) (x2 : FVec Ideal Cert.ReferenceIdeal.S64x800000 .f32)
    (x3 : FVec Ideal Cert.ReferenceIdeal.S800000 .f32) (h0 : ∀ i, IsReal (x0 i)) (h2 : ∀ i, IsReal (x2 i)) (h3 : ∀ i, IsReal (x3 i))
    (j : Cert.ReferenceIdeal.S50000x16.Idx) : IsReal (Cert.Spec.decoded (F := Ideal) x0 x2 x3 j) := by
  have hrow : ∀ i, IsReal (Cert.Spec.decoderRow (F := Ideal) x0 x2 x3 i) := by
    intro i
    rw [← decoder_row x0 x2 x3]
    obtain ⟨u, q, rfl⟩ : ∃ (u : Fin 1) (q : Fin 800000), i = ix2 u q := ⟨i 0, i 1, eq_ix2 i⟩
    refine IsReal.add (IsReal.sum _ _ fun e _ => IsReal.mul (h0 _) (h2 _)) ?_
    show IsReal (broadcastInDim _ _ _ x3 (ix2 u q))
    rw [Cert.LibRowMax.broadcastInDim_b_1b_apply x3 _ u q]
    exact h3 _
  unfold Cert.Spec.decoded shapeCast
  exact hrow _

end Cert.Spec

end
-- ==== Proof.RegionArrays0.lean ====
/-
  The output array of the column-blocked product-plus-bias region, after its last grid point, as ONE matrix product plus a row.

  The region multiplies a `[1,64]` array by a `[64,800000]` array and adds a `[1,800000]` bias row, in fifty column blocks
  of 16000: at grid point `t` the body rounds the whole left array and column block `t` of the right array to a shorter
  float format, multiplies them into a zero accumulator, adds column block `t` of the bias row, and the pipeline writes the
  result back as column block `t` of the output. At the ideal instance rounding is the identity, so each block is the
  product of the left array with those columns plus those bias entries, which is the same columns of the whole product
  plus the whole bias row; the fifty blocks tile the output, so the output array ends holding the product of the two
  arrays plus the bias row, as the region finds them.
-/
import proofs.«108978_j2104533975392_2_alg».proof.Proof.Gen.KernelIdeal.Frame
import proofs.«108978_j2104533975392_2_alg».proof.Proof.LibProduct
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.RegionArrays

open Cert.KernelIdeal Cert.KernelIdeal.Gen Cert.LibProduct

variable (V : (c : Dev nD) → (b : Ref sig .tc) → Buf (Elt Ideal) ((c : Thread nD τ).loc b))

/-- A block read at offset zero on both axes. -/
private theorem zero_offsets : (![0, 0] : Fin 2 → Nat) = fun _ => 0 := funext fun a => by fin_cases a <;> rfl

/-! ## Region 0: `[1,64] × [64,800000]` plus a bias row, in column blocks of 16000 -/

/-- One grid point's arithmetic: the rounded product of the whole left factor and its column block, plus its block of the
    bias row. -/
theorem block_product0 (x0 : Vec Ideal S1x64 .f32) (x1 : Vec Ideal S64x16000 .f32) (x2 : Vec Ideal S1x16000 .f32) :
    k0_pay1 x0 x1 x2 = fun i => product x0 x1 i + x2 i := by
  unfold k0_pay1
  rw [shapeCast_self]
  funext i
  exact congrArg (· + x2 i) (congrFun (matmul_rounded_eq (a := 1) (k := 64) (b := 16000)
    dot_S1x64_S64x16000_S1x16000_1_0_0_1_n_n_wf none x0 x1 bitsLt_bf16_f32 bitsLt_bf16_f32) i)

/-- An entry of a column block's product plus its bias entry is the entry of the whole product plus the whole bias row's,
    when the block's row, column and bias entry are the whole arrays' at that index: the sum over the contracted coordinate
    is taken term by term. -/
theorem column_block_entry0 (x0 : Vec Ideal S1x64 .f32) (x1 : Vec Ideal S64x16000 .f32) (x2 : Vec Ideal S1x16000 .f32)
    (X : S1x64.Idx → EReal) (W : S64x800000.Idx → EReal) (B : S1x800000.Idx → EReal)
    (j : S1x16000.Idx) (i : S1x800000.Idx)
    (h0 : ∀ e : Fin 64, x0 (ix2 (j 0) e) = X (ix2 (i 0) e))
    (h1 : ∀ e : Fin 64, x1 (ix2 e (j 1)) = W (ix2 e (i 1)))
    (h2 : x2 j = B i) :
    product x0 x1 j + x2 j = product X W i + B i := by
  rw [h2]
  refine congrArg (· + B i) ?_
  exact Finset.sum_congr rfl fun e _ => by rw [h0 e, h1 e]

/-- The printed index maps over the grid: point `t` takes the whole left factor and column block `t` of the right
    factor, of the bias row and of the output. -/
theorem column_block_indices0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What point `t` writes back is column block `t` of the product of the two arrays plus the bias row, as the region
    finds them. -/
theorem column_block_product0 (c : Dev nD) (X : S1x64.Idx → EReal) (W : S64x800000.Idx → EReal) (B : S1x800000.Idx → EReal)
    (hX : (V c (Pipeline.arrRef spec0 0) : S1x64.Idx → EReal) = X)
    (hW : (V c (Pipeline.arrRef spec0 1) : S64x800000.Idx → EReal) = W)
    (hB : (V c (Pipeline.arrRef spec0 2) : S1x800000.Idx → EReal) = B) (t : Fin cfg0.N) :
    (dat0 (F := Ideal) V c).flushed 3 t
      = ((cfg0.win 3).blk t).view.read (Elt Ideal) (fun i => product X W i + B i) := by
  show (cfg0.win 3).cut (grid0.coords t) ((dat0 (F := Ideal) V c).after 3 t) = _
  rw [after0_3]
  unfold out0_3
  rw [View.canon_unit_zero zero_offsets]
  simp only [View.ld_unit_zero (S := S1x64) zero_offsets, View.ld_unit_zero (S := S64x16000) zero_offsets,
    View.ld_unit_zero (S := S1x16000) zero_offsets]
  rw [block_product0]
  obtain ⟨e0, e1, e2, e3, e4, e5, e6, e7⟩ := column_block_indices0 t
  funext j
  show product (iblk0 V c 0 t) (iblk0 V c 1 t) j + iblk0 V c 2 t j
    = product X W (((cfg0.win 3).blk t).view.emb j) + B (((cfg0.win 3).blk t).view.emb j)
  refine column_block_entry0 (iblk0 V c 0 t) (iblk0 V c 1 t) (iblk0 V c 2 t) X W B j _
    (fun e => ?_) (fun e => ?_) ?_
  · -- the one row of the left factor
    rw [← hX]
    unfold iblk0
    rw [View.read_apply]
    refine congrArg (V c (Pipeline.arrRef spec0 0)) ?_
    funext a
    apply Fin.ext
    match a with
    | ⟨0, _⟩ =>
      show win0_0.index t (0 : Fin 2) * 1 + 1 * (j 0).val = win0_3.index t (0 : Fin 2) * 1 + 1 * (j 0).val
      rw [e0, e6]
    | ⟨1, _⟩ =>
      show win0_0.index t (1 : Fin 2) * 64 + 1 * e.val = e.val
      rw [e1]; omega
  · -- the column of the right block is the same column of the right array, 16000 t further along
    rw [← hW]
    unfold iblk0
    rw [View.read_apply]
    refine congrArg (V c (Pipeline.arrRef spec0 1)) ?_
    funext a
    apply Fin.ext
    match a with
    | ⟨0, _⟩ =>
      show win0_1.index t (0 : Fin 2) * 64 + 1 * e.val = e.val
      rw [e2]; omega
    | ⟨1, _⟩ =>
      show win0_1.index t (1 : Fin 2) * 16000 + 1 * (j 1).val = win0_3.index t (1 : Fin 2) * 16000 + 1 * (j 1).val
      rw [e3, e7]
  · -- the bias block's entry is the bias row's entry at the same column
    rw [← hB]
    unfold iblk0
    rw [View.read_apply]
    refine congrArg (V c (Pipeline.arrRef spec0 2)) ?_
    funext a
    apply Fin.ext
    match a with
    | ⟨0, _⟩ =>
      show win0_2.index t (0 : Fin 2) * 1 + 1 * (j 0).val = win0_3.index t (0 : Fin 2) * 1 + 1 * (j 0).val
      rw [e4, e6]
    | ⟨1, _⟩ =>
      show win0_2.index t (1 : Fin 2) * 16000 + 1 * (j 1).val = win0_3.index t (1 : Fin 2) * 16000 + 1 * (j 1).val
      rw [e5, e7]

/-- An index of the output array is in point `t`'s block iff each coordinate is in the block's range on its axis. -/
theorem mem_column_block0 (t : Fin cfg0.N) (i : S1x800000.Idx) :
    i ∈ ((cfg0.win 3).blk t).view.set ↔ ∀ a : Fin 2, win0_3.index t a * S1x16000.size a ≤ (i a).val
      ∧ (i a).val < win0_3.index t a * S1x16000.size a + S1x16000.size a := by
  show i ∈ ((View.whole main_v31).slice (win0_3.rect t)).set ↔ _
  rw [View.set_slice_whole, Rect.mem_set_unit]
  exact Iff.rfl

/-- Column `q` of the output is written by point `q / 16000`: the fifty column blocks cover the array. -/
theorem column_blocks_cover0 (i : S1x800000.Idx) :
    ∃ t : Fin cfg0.N, (cfg0.win 3).flush t = true ∧ i ∈ ((cfg0.win 3).blk t).view.set := by
  have hi0 : (i 0).val < 1 := (i 0).isLt
  have hi1 : (i 1).val < 800000 := (i 1).isLt
  have hN : cfg0.N = 50 := N_0
  obtain ⟨t, ht⟩ : ∃ t : Fin cfg0.N, t.val = (i 1).val / 16000 := ⟨⟨(i 1).val / 16000, by rw [hN]; omega⟩, rfl⟩
  obtain ⟨-, -, -, -, -, -, e6, e7⟩ := column_block_indices0 t
  refine ⟨t, flush0_3 t, ?_⟩
  rw [mem_column_block0]
  intro a
  match a with
  | ⟨0, _⟩ =>
    show win0_3.index t (0 : Fin 2) * 1 ≤ (i 0).val ∧ (i 0).val < win0_3.index t (0 : Fin 2) * 1 + 1
    rw [e6]; omega
  | ⟨1, _⟩ =>
    show win0_3.index t (1 : Fin 2) * 16000 ≤ (i 1).val ∧ (i 1).val < win0_3.index t (1 : Fin 2) * 16000 + 16000
    rw [e7, ht]; omega

/-- THE OUTPUT ARRAY of region 0 after its last point: the product of the two input arrays plus the bias row, as the
    region finds them. -/
theorem region0_array (c : Dev nD) (X : S1x64.Idx → EReal) (W : S64x800000.Idx → EReal) (B : S1x800000.Idx → EReal)
    (hX : (V c (Pipeline.arrRef spec0 0) : S1x64.Idx → EReal) = X)
    (hW : (V c (Pipeline.arrRef spec0 1) : S64x800000.Idx → EReal) = W)
    (hB : (V c (Pipeline.arrRef spec0 2) : S1x800000.Idx → EReal) = B) :
    (dat0 (F := Ideal) V c).arrAt 3 cfg0.N = fun i => product X W i + B i :=
  (dat0 (F := Ideal) V c).arrAt_eq_of_cover 3 (fun i => product X W i + B i)
    (fun t _ => column_block_product0 V c X W B hX hW hB t) column_blocks_cover0

end Cert.KernelIdeal.RegionArrays

end
-- ==== Proof.RegionArrays1.lean ====
/-
  The output array of the first row-blocked product region, after its last grid point, as ONE matrix product.

  The region multiplies a `[50000,16]` array by a `[16,64]` array in ten row blocks of 5000: at grid point `t` the body
  rounds row block `t` of the left array and the whole right array to a shorter float format, multiplies them into a zero
  accumulator, and the pipeline writes the result back as row block `t` of the output. At the ideal instance rounding is the
  identity, so each block is the product of its rows with the right array, which is the same rows of the whole product;
  the ten blocks tile the output, so the output array ends holding the product of the two arrays as the region finds them.
-/
import proofs.«108978_j2104533975392_2_alg».proof.Proof.Gen.KernelIdeal.Frame
import proofs.«108978_j2104533975392_2_alg».proof.Proof.LibProduct
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.RegionArrays

open Cert.KernelIdeal Cert.KernelIdeal.Gen Cert.LibProduct

variable (V : (c : Dev nD) → (b : Ref sig .tc) → Buf (Elt Ideal) ((c : Thread nD τ).loc b))

/-- A block read at offset zero on both axes. -/
private theorem zero_offsets : (![0, 0] : Fin 2 → Nat) = fun _ => 0 := funext fun a => by fin_cases a <;> rfl

/-! ## Region 1: `[50000,16] × [16,64]` in row blocks of 5000 -/

/-- One grid point's arithmetic: the rounded product of its row block and the whole right factor is their product. -/
theorem block_product1 (x0 : Vec Ideal S5000x16 .f32) (x1 : Vec Ideal S16x64 .f32) :
    k1_pay1 x0 x1 = product x0 x1 := by
  unfold k1_pay1
  rw [shapeCast_self]
  exact matmul_rounded_eq (a := 5000) (k := 16) (b := 64) dot_S5000x16_S16x64_S5000x64_1_0_0_1_n_n_wf none x0 x1
    bitsLt_bf16_f32 bitsLt_bf16_f32

/-- The printed index maps over the grid: point `t` takes row block `t` of the left factor and of the output, and the
    whole right factor. -/
theorem row_block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is row block `t` of the product of the two arrays as the region finds them. -/
theorem row_block_product1 (c : Dev nD) (X : S50000x16.Idx → EReal) (W : S16x64.Idx → EReal)
    (hX : (V c (Pipeline.arrRef spec1 0) : S50000x16.Idx → EReal) = X)
    (hW : (V c (Pipeline.arrRef spec1 1) : S16x64.Idx → EReal) = W) (t : Fin cfg1.N) :
    (dat1 (F := Ideal) V c).flushed 2 t = ((cfg1.win 2).blk t).view.read (Elt Ideal) (product X W) := by
  show (cfg1.win 2).cut (grid1.coords t) ((dat1 (F := Ideal) V c).after 2 t) = _
  rw [after1_2]
  unfold out1_2
  rw [View.canon_unit_zero zero_offsets]
  simp only [View.ld_unit_zero (S := S5000x16) zero_offsets, View.ld_unit_zero (S := S16x64) zero_offsets]
  rw [block_product1]
  obtain ⟨e0, e1, e2, e3, e4, e5⟩ := row_block_indices1 t
  funext j
  show product (iblk1 V c 0 t) (iblk1 V c 1 t) j = product X W (((cfg1.win 2).blk t).view.emb j)
  refine product_congr _ _ X W j _ (fun e => ?_) (fun e => ?_)
  · -- the row of the left block is the same row of the left array, 5000 t further down
    rw [← hX]
    unfold iblk1
    rw [View.read_apply]
    refine congrArg (V c (Pipeline.arrRef spec1 0)) ?_
    funext a
    apply Fin.ext
    match a with
    | ⟨0, _⟩ =>
      show win1_0.index t (0 : Fin 2) * 5000 + 1 * (j 0).val = win1_2.index t (0 : Fin 2) * 5000 + 1 * (j 0).val
      rw [e0, e4]
    | ⟨1, _⟩ =>
      show win1_0.index t (1 : Fin 2) * 16 + 1 * e.val = e.val
      rw [e1]; omega
  · -- the column of the right block is the same column of the right array
    rw [← hW]
    unfold iblk1
    rw [View.read_apply]
    refine congrArg (V c (Pipeline.arrRef spec1 1)) ?_
    funext a
    apply Fin.ext
    match a with
    | ⟨0, _⟩ =>
      show win1_1.index t (0 : Fin 2) * 16 + 1 * e.val = e.val
      rw [e2]; omega
    | ⟨1, _⟩ =>
      show win1_1.index t (1 : Fin 2) * 64 + 1 * (j 1).val = win1_2.index t (1 : Fin 2) * 64 + 1 * (j 1).val
      rw [e3, e5]

/-- An index of the output array is in point `t`'s block iff each coordinate is in the block's range on its axis. -/
theorem mem_row_block1 (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v46).slice (win1_2.rect t)).set ↔ _
  rw [View.set_slice_whole, Rect.mem_set_unit]
  exact Iff.rfl

/-- Row `r` of the output is written by point `r / 5000`: the ten row blocks cover the array. -/
theorem row_blocks_cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e4, e5⟩ := row_block_indices1 t
  refine ⟨t, flush1_2 t, ?_⟩
  rw [mem_row_block1]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 64 ≤ (i 1).val ∧ (i 1).val < win1_2.index t (1 : Fin 2) * 64 + 64
    rw [e5]; omega

/-- THE OUTPUT ARRAY of region 1 after its last point: the product of the two input arrays as the region finds them. -/
theorem region1_array (c : Dev nD) (X : S50000x16.Idx → EReal) (W : S16x64.Idx → EReal)
    (hX : (V c (Pipeline.arrRef spec1 0) : S50000x16.Idx → EReal) = X)
    (hW : (V c (Pipeline.arrRef spec1 1) : S16x64.Idx → EReal) = W) :
    (dat1 (F := Ideal) V c).arrAt 2 cfg1.N = product X W :=
  (dat1 (F := Ideal) V c).arrAt_eq_of_cover 2 (product X W) (fun t _ => row_block_product1 V c X W hX hW t)
    row_blocks_cover1

end Cert.KernelIdeal.RegionArrays

end
-- ==== Proof.RegionArrays2.lean ====
/-
  The output array of the second row-blocked product region, after its last grid point, as ONE matrix product.

  The region multiplies a `[50000,64]` array by a `[64,32]` array in ten row blocks of 5000: at grid point `t` the body
  rounds row block `t` of the left array and the whole right array to a shorter float format, multiplies them into a zero
  accumulator, and the pipeline writes the result back as row block `t` of the output. At the ideal instance rounding is the
  identity, so each block is the product of its rows with the right array, which is the same rows of the whole product;
  the ten blocks tile the output, so the output array ends holding the product of the two arrays as the region finds them.
-/
import proofs.«108978_j2104533975392_2_alg».proof.Proof.Gen.KernelIdeal.Frame
import proofs.«108978_j2104533975392_2_alg».proof.Proof.LibProduct
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.RegionArrays

open Cert.KernelIdeal Cert.KernelIdeal.Gen Cert.LibProduct

variable (V : (c : Dev nD) → (b : Ref sig .tc) → Buf (Elt Ideal) ((c : Thread nD τ).loc b))

/-- A block read at offset zero on both axes. -/
private theorem zero_offsets : (![0, 0] : Fin 2 → Nat) = fun _ => 0 := funext fun a => by fin_cases a <;> rfl

/-! ## Region 2: `[50000,64] × [64,32]` in row blocks of 5000 -/

/-- One grid point's arithmetic: the rounded product of its row block and the whole right factor is their product. -/
theorem block_product2 (x0 : Vec Ideal S5000x64 .f32) (x1 : Vec Ideal S64x32 .f32) :
    k2_pay1 x0 x1 = product x0 x1 := by
  unfold k2_pay1
  rw [shapeCast_self]
  exact matmul_rounded_eq (a := 5000) (k := 64) (b := 32) dot_S5000x64_S64x32_S5000x32_1_0_0_1_n_n_wf none x0 x1
    bitsLt_bf16_f32 bitsLt_bf16_f32

/-- The printed index maps over the grid: point `t` takes row block `t` of the left factor and of the output, and the
    whole right factor. -/
theorem row_block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the product of the two arrays as the region finds them. -/
theorem row_block_product2 (c : Dev nD) (X : S50000x64.Idx → EReal) (W : S64x32.Idx → EReal)
    (hX : (V c (Pipeline.arrRef spec2 0) : S50000x64.Idx → EReal) = X)
    (hW : (V c (Pipeline.arrRef spec2 1) : S64x32.Idx → EReal) = W) (t : Fin cfg2.N) :
    (dat2 (F := Ideal) V c).flushed 2 t = ((cfg2.win 2).blk t).view.read (Elt Ideal) (product X W) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S64x32) zero_offsets]
  rw [block_product2]
  obtain ⟨e0, e1, e2, e3, e4, e5⟩ := row_block_indices2 t
  funext j
  show product (iblk2 V c 0 t) (iblk2 V c 1 t) j = product X W (((cfg2.win 2).blk t).view.emb j)
  refine product_congr _ _ X W j _ (fun e => ?_) (fun e => ?_)
  · -- the row of the left block is the same row of the left array, 5000 t further down
    rw [← hX]
    unfold iblk2
    rw [View.read_apply]
    refine congrArg (V c (Pipeline.arrRef spec2 0)) ?_
    funext a
    apply Fin.ext
    match a with
    | ⟨0, _⟩ =>
      show win2_0.index t (0 : Fin 2) * 5000 + 1 * (j 0).val = win2_2.index t (0 : Fin 2) * 5000 + 1 * (j 0).val
      rw [e0, e4]
    | ⟨1, _⟩ =>
      show win2_0.index t (1 : Fin 2) * 64 + 1 * e.val = e.val
      rw [e1]; omega
  · -- the column of the right block is the same column of the right array
    rw [← hW]
    unfold iblk2
    rw [View.read_apply]
    refine congrArg (V c (Pipeline.arrRef spec2 1)) ?_
    funext a
    apply Fin.ext
    match a with
    | ⟨0, _⟩ =>
      show win2_1.index t (0 : Fin 2) * 64 + 1 * e.val = e.val
      rw [e2]; omega
    | ⟨1, _⟩ =>
      show win2_1.index t (1 : Fin 2) * 32 + 1 * (j 1).val = win2_2.index t (1 : Fin 2) * 32 + 1 * (j 1).val
      rw [e3, e5]

/-- An index of the output array is in point `t`'s block iff each coordinate is in the block's range on its axis. -/
theorem mem_row_block2 (t : Fin cfg2.N) (i : S50000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v51).slice (win2_2.rect t)).set ↔ _
  rw [View.set_slice_whole, Rect.mem_set_unit]
  exact Iff.rfl

/-- Row `r` of the output is written by point `r / 5000`: the ten row blocks cover the array. -/
theorem row_blocks_cover2 (i : S50000x32.Idx) :
    ∃ t : Fin cfg2.N, (cfg2.win 2).flush t = true ∧ i ∈ ((cfg2.win 2).blk t).view.set := by
  have hi0 : (i 0).val < 50000 := (i 0).isLt
  have hi1 : (i 1).val < 32 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5⟩ := row_block_indices2 t
  refine ⟨t, flush2_2 t, ?_⟩
  rw [mem_row_block2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 32 ≤ (i 1).val ∧ (i 1).val < win2_2.index t (1 : Fin 2) * 32 + 32
    rw [e5]; omega

/-- THE OUTPUT ARRAY of region 2 after its last point: the product of the two input arrays as the region finds them. -/
theorem region2_array (c : Dev nD) (X : S50000x64.Idx → EReal) (W : S64x32.Idx → EReal)
    (hX : (V c (Pipeline.arrRef spec2 0) : S50000x64.Idx → EReal) = X)
    (hW : (V c (Pipeline.arrRef spec2 1) : S64x32.Idx → EReal) = W) :
    (dat2 (F := Ideal) V c).arrAt 2 cfg2.N = product X W :=
  (dat2 (F := Ideal) V c).arrAt_eq_of_cover 2 (product X W) (fun t _ => row_block_product2 V c X W hX hW t)
    row_blocks_cover2

end Cert.KernelIdeal.RegionArrays

end
-- ==== Proof.FiniteArgs.lean ====
/-
  Finiteness of four argument arrays from the precondition. The precondition computes, per float argument,
  |x| < +∞ at every element, folds each array of one-bit answers by "and" over all axes, and chains the
  ten folds by "and"; it states the result is 1. So every fold is 1, so every element's comparison is 1,
  so |x| < +∞ on the extended reals, which says x is neither +∞ nor -∞: a real.
-/
import proofs.«108978_j2104533975392_2_alg».proof.Defs
import proofs.«108978_j2104533975392_2_alg».proof.Proof.Gen.Pre_finite_inputs
import proofs.«108978_j2104533975392_2_alg».proof.Proof.LibFeatureFold
import Idealize.ShloMosaic.Lib.ReduceAll
import Idealize.ShloMosaic.Lib.IdealHost

noncomputable section

namespace Cert.KernelIdeal.FiniteArgs

open Idealize.ShloMosaic Idealize.ShloMosaic.ValueIdx Idealize.SL.Sem
open Cert.Lib.FeatureFold Cert.Pre_finite_inputs

/-- The rank-0 shape has one index. -/
instance : Subsingleton S_.Idx := ⟨fun a b => funext fun d => d.elim0⟩

/-- An extended real whose absolute value max x (-x) is below +∞ is a real. -/
theorem isReal_of_abs_lt_top (x : EReal) (h : max x (-x) < ⊤) : IsReal x := by
  induction x using EReal.rec with
  | bot => simp at h
  | coe r => exact ⟨r, rfl⟩
  | top => simp at h

/-- The f32 pattern 0x7F800000 is +∞. -/
theorem ofBits_inf : Ideal.ofBits .f32 0x7F800000#32 = ⊤ := by simp [Ideal.ofBits, Ideal.ieee]

/-- The element fact: the ordered comparison |x| < +∞ answering 1 says x is a real. -/
theorem isReal_of_cmp (x : EReal)
    (h : Ideal.cmp .olt (max x (-x)) (Ideal.ofBits .f32 0x7F800000#32) = 1#1) : IsReal x := by
  rw [ofBits_inf] at h
  have h' : BitVec.ofBool (decide (max x (-x) < ⊤)) = 1#1 := h
  by_cases hlt : max x (-x) < ⊤
  · exact isReal_of_abs_lt_top x hlt
  · exfalso; simp [hlt] at h'

/-- One array: the fold by "and" over all axes of the elementwise |x| < +∞ being 1 makes every element a real. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
        init hr hu ix0 = 1#1)
    (i : s.Idx) : IsReal (x i) := by
  have h1 := Host.reduce_andi_all _ init hr hu ix0 e i
  have h2 : Ideal.cmp .olt (max (x i) (-(x i)))
      (broadcastInDim s ![] hb (constant (F := Ideal) S_ .f32 0x7F800000#32) i) = 1#1 := h1
  rw [broadcastInDim_scalar_apply] at h2
  exact isReal_of_cmp (x i) h2

/-- An "and" of two one-bit scalars that is 1 had both 1. -/
theorem andi_ix0 (a b : IVec S_ 1) (h : andi a b ix0 = 1#1) : a ix0 = 1#1 ∧ b ix0 = 1#1 :=
  IntOp.andi_eq_one.1 h

theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S1x64.Idx, IsReal ((m ((c.tc : Thread Cert.KernelIdeal.nD Cert.KernelIdeal.τ).loc Cert.KernelIdeal.main_arg0) : FVec Ideal Cert.KernelIdeal.S1x64 .f32) i))
    ∧ (∀ i : Cert.KernelIdeal.S64x800000.Idx, IsReal ((m ((c.tc : Thread Cert.KernelIdeal.nD Cert.KernelIdeal.τ).loc Cert.KernelIdeal.main_arg2) : FVec Ideal Cert.KernelIdeal.S64x800000 .f32) i))
    ∧ (∀ i : Cert.KernelIdeal.S800000.Idx, IsReal ((m ((c.tc : Thread Cert.KernelIdeal.nD Cert.KernelIdeal.τ).loc Cert.KernelIdeal.main_arg3) : FVec Ideal Cert.KernelIdeal.S800000 .f32) i))
    ∧ (∀ i : Cert.KernelIdeal.S16x64.Idx, IsReal ((m ((c.tc : Thread Cert.KernelIdeal.nD Cert.KernelIdeal.τ).loc Cert.KernelIdeal.main_arg4) : FVec Ideal Cert.KernelIdeal.S16x64 .f32) i)) := by
  -- the precondition at this device, read at the one index of its scalar result
  have e := congrFun (h c) ix0
  dsimp only [Cert.Pre_finite_inputs.fn, Cert.Pre_finite_inputs.fn_part1, Cert.Pre_finite_inputs.fn_part2] at e
  -- the chain of "and"s, outermost first: arguments 9, 8, 7, 6, 5 are dropped, then 4, 3, 2, 0 are kept
  obtain ⟨e38, -⟩ := andi_ix0 _ _ e
  obtain ⟨e33, -⟩ := andi_ix0 _ _ e38
  obtain ⟨e28, -⟩ := andi_ix0 _ _ e33
  obtain ⟨e23, -⟩ := andi_ix0 _ _ e28
  obtain ⟨e18, -⟩ := andi_ix0 _ _ e23
  obtain ⟨e13, e17⟩ := andi_ix0 _ _ e18
  obtain ⟨e8, e12⟩ := andi_ix0 _ _ e13
  obtain ⟨e3, e7⟩ := andi_ix0 _ _ e8
  exact ⟨real_of_all _ _ _ _ _ e3, real_of_all _ _ _ _ _ e7, real_of_all _ _ _ _ _ e12, real_of_all _ _ _ _ _ e17⟩

end Cert.KernelIdeal.FiniteArgs

end
-- ==== Proof.KernelValue.lean ====
/-
  The idealized kernel program's result is the network of `Spec`, for finite inputs.

  The program's twelve segments are chained from the launch contents: each stretch of host operations contributes
  its stage of `Spec` (read back in the module of the stretches), each of the three grid regions a matrix product of
  the arrays it finds (the decoder's with its bias row, the first and the second layer's).  Two places differ from the
  network's order of operations:

  * the first layer aggregates the 16 decoded features along the edges and multiplies by the weight matrix
    afterwards, where the network multiplies first: for real coefficients, features and weights the two are equal,
    and that is where the finiteness of the inputs is used — the decoded features are finite sums of products of
    reals, the coefficients are products of guarded inverse square roots, which are nonnegative reals whatever the
    degrees are;
  * the second layer gathers its product's rows through a copy in a shorter float format, which at the ideal
    instance is the product itself.
-/
import proofs.«108978_j2104533975392_2_alg».proof.Proof.Gen.KernelIdeal.Frame
import proofs.«108978_j2104533975392_2_alg».proof.Proof.KernelStretches
import proofs.«108978_j2104533975392_2_alg».proof.Proof.LibGraphLayer
import proofs.«108978_j2104533975392_2_alg».proof.Proof.SpecReal
import proofs.«108978_j2104533975392_2_alg».proof.Proof.RegionArrays0
import proofs.«108978_j2104533975392_2_alg».proof.Proof.RegionArrays1
import proofs.«108978_j2104533975392_2_alg».proof.Proof.RegionArrays2
import proofs.«108978_j2104533975392_2_alg».proof.Proof.FiniteArgs
import Idealize.ShloMosaic.PureOps.Ideal

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo
open Idealize.ShloMosaic.ValueIdx
open Cert.Reads Cert.Lib.FeatureFold Cert.LibProduct

/-! ## The chain through the program's twelve segments -/

section Chain

variable (m : (ℓ : Loc nD τ sig) → Buf (Elt Ideal) ℓ) (ρ : Dev nD → PrngReg) (c : Dev nD)

/-! ### Up to the decoder's region -/

theorem at1_v5 : W1 m ρ c (Proc.devRef .tc main_v5) = (Cert.Spec.src (m ((c : Thread nD τ).loc main_arg1))) := edges_src (W0 m ρ c)
theorem at1_v6 : W1 m ρ c (Proc.devRef .tc main_v6) = (Cert.Spec.dst (m ((c : Thread nD τ).loc main_arg1))) := edges_dst (W0 m ρ c)
theorem at1_v12 : W1 m ρ c (Proc.devRef .tc main_v12) = (Cert.Spec.positive (F := Ideal) (m ((c : Thread nD τ).loc main_arg1))) := edges_positive (W0 m ρ c)
theorem at1_v13 : W1 m ρ c (Proc.devRef .tc main_v13) = (Cert.Spec.rsqrtDeg (F := Ideal) (m ((c : Thread nD τ).loc main_arg1))) := edges_rsqrt (W0 m ρ c)
theorem at1_cst_2 : W1 m ρ c (Proc.devRef .tc main_cst_2) = (Cert.Spec.zeroScalar (F := Ideal)) := edges_zero (W0 m ρ c)
theorem at1_arg0 : W1 m ρ c (Proc.devRef .tc main_arg0) = (m ((c : Thread nD τ).loc main_arg0)) := edges_arg0 (W0 m ρ c)
theorem at1_arg2 : W1 m ρ c (Proc.devRef .tc main_arg2) = (m ((c : Thread nD τ).loc main_arg2)) := edges_arg2 (W0 m ρ c)
theorem at1_arg3 : W1 m ρ c (Proc.devRef .tc main_arg3) = (m ((c : Thread nD τ).loc main_arg3)) := edges_arg3 (W0 m ρ c)
theorem at1_arg4 : W1 m ρ c (Proc.devRef .tc main_arg4) = (m ((c : Thread nD τ).loc main_arg4)) := edges_arg4 (W0 m ρ c)
theorem at1_arg5 : W1 m ρ c (Proc.devRef .tc main_arg5) = (m ((c : Thread nD τ).loc main_arg5)) := edges_arg5 (W0 m ρ c)
theorem at1_arg6 : W1 m ρ c (Proc.devRef .tc main_arg6) = (m ((c : Thread nD τ).loc main_arg6)) := edges_arg6 (W0 m ρ c)
theorem at1_arg7 : W1 m ρ c (Proc.devRef .tc main_arg7) = (m ((c : Thread nD τ).loc main_arg7)) := edges_arg7 (W0 m ρ c)
theorem at1_arg8 : W1 m ρ c (Proc.devRef .tc main_arg8) = (m ((c : Thread nD τ).loc main_arg8)) := edges_arg8 (W0 m ρ c)
theorem at1_arg9 : W1 m ρ c (Proc.devRef .tc main_arg9) = (m ((c : Thread nD τ).loc main_arg9)) := edges_arg9 (W0 m ρ c)

/-- The guarded inverse square root degrees. -/
theorem at2_v14 : W2 m ρ c (Proc.devRef .tc main_v14) = (Cert.Spec.dinv (F := Ideal) (m ((c : Thread nD τ).loc main_arg1))) := by
  have h := guard_out (W1 m ρ c)
  rw [at1_v12, at1_v13, at1_cst_2] at h
  exact h
theorem at2_v5 : W2 m ρ c (Proc.devRef .tc main_v5) = (Cert.Spec.src (m ((c : Thread nD τ).loc main_arg1))) := (guard_v5 (W1 m ρ c)).trans (at1_v5 m ρ c)
theorem at2_v6 : W2 m ρ c (Proc.devRef .tc main_v6) = (Cert.Spec.dst (m ((c : Thread nD τ).loc main_arg1))) := (guard_v6 (W1 m ρ c)).trans (at1_v6 m ρ c)
theorem at2_arg0 : W2 m ρ c (Proc.devRef .tc main_arg0) = (m ((c : Thread nD τ).loc main_arg0)) := (guard_arg0 (W1 m ρ c)).trans (at1_arg0 m ρ c)
theorem at2_arg2 : W2 m ρ c (Proc.devRef .tc main_arg2) = (m ((c : Thread nD τ).loc main_arg2)) := (guard_arg2 (W1 m ρ c)).trans (at1_arg2 m ρ c)
theorem at2_arg3 : W2 m ρ c (Proc.devRef .tc main_arg3) = (m ((c : Thread nD τ).loc main_arg3)) := (guard_arg3 (W1 m ρ c)).trans (at1_arg3 m ρ c)
theorem at2_arg4 : W2 m ρ c (Proc.devRef .tc main_arg4) = (m ((c : Thread nD τ).loc main_arg4)) := (guard_arg4 (W1 m ρ c)).trans (at1_arg4 m ρ c)
theorem at2_arg5 : W2 m ρ c (Proc.devRef .tc main_arg5) = (m ((c : Thread nD τ).loc main_arg5)) := (guard_arg5 (W1 m ρ c)).trans (at1_arg5 m ρ c)
theorem at2_arg6 : W2 m ρ c (Proc.devRef .tc main_arg6) = (m ((c : Thread nD τ).loc main_arg6)) := (guard_arg6 (W1 m ρ c)).trans (at1_arg6 m ρ c)
theorem at2_arg7 : W2 m ρ c (Proc.devRef .tc main_arg7) = (m ((c : Thread nD τ).loc main_arg7)) := (guard_arg7 (W1 m ρ c)).trans (at1_arg7 m ρ c)
theorem at2_arg8 : W2 m ρ c (Proc.devRef .tc main_arg8) = (m ((c : Thread nD τ).loc main_arg8)) := (guard_arg8 (W1 m ρ c)).trans (at1_arg8 m ρ c)
theorem at2_arg9 : W2 m ρ c (Proc.devRef .tc main_arg9) = (m ((c : Thread nD τ).loc main_arg9)) := (guard_arg9 (W1 m ρ c)).trans (at1_arg9 m ρ c)

theorem at3_v29 : W3 m ρ c (Proc.devRef .tc main_v29) = (Cert.Spec.coef (F := Ideal) (m ((c : Thread nD τ).loc main_arg1))) := by
  have h := coef_out (W2 m ρ c)
  rw [at2_v14, at2_v5, at2_v6] at h
  exact h
theorem at3_bias : W3 m ρ c (Proc.devRef .tc main_v30) = Cert.Spec.biasRow (F := Ideal) (m ((c : Thread nD τ).loc main_arg3)) := (bias_out (W2 m ρ c)).trans (congrArg _ (at2_arg3 m ρ c))
theorem at3_v5 : W3 m ρ c (Proc.devRef .tc main_v5) = (Cert.Spec.src (m ((c : Thread nD τ).loc main_arg1))) := (coef_v5 (W2 m ρ c)).trans (at2_v5 m ρ c)
theorem at3_v6 : W3 m ρ c (Proc.devRef .tc main_v6) = (Cert.Spec.dst (m ((c : Thread nD τ).loc main_arg1))) := (coef_v6 (W2 m ρ c)).trans (at2_v6 m ρ c)
theorem at3_arg0 : W3 m ρ c (Proc.devRef .tc main_arg0) = (m ((c : Thread nD τ).loc main_arg0)) := (coef_arg0 (W2 m ρ c)).trans (at2_arg0 m ρ c)
theorem at3_arg2 : W3 m ρ c (Proc.devRef .tc main_arg2) = (m ((c : Thread nD τ).loc main_arg2)) := (coef_arg2 (W2 m ρ c)).trans (at2_arg2 m ρ c)
theorem at3_arg4 : W3 m ρ c (Proc.devRef .tc main_arg4) = (m ((c : Thread nD τ).loc main_arg4)) := (coef_arg4 (W2 m ρ c)).trans (at2_arg4 m ρ c)
theorem at3_arg5 : W3 m ρ c (Proc.devRef .tc main_arg5) = (m ((c : Thread nD τ).loc main_arg5)) := (coef_arg5 (W2 m ρ c)).trans (at2_arg5 m ρ c)
theorem at3_arg6 : W3 m ρ c (Proc.devRef .tc main_arg6) = (m ((c : Thread nD τ).loc main_arg6)) := (coef_arg6 (W2 m ρ c)).trans (at2_arg6 m ρ c)
theorem at3_arg7 : W3 m ρ c (Proc.devRef .tc main_arg7) = (m ((c : Thread nD τ).loc main_arg7)) := (coef_arg7 (W2 m ρ c)).trans (at2_arg7 m ρ c)
theorem at3_arg8 : W3 m ρ c (Proc.devRef .tc main_arg8) = (m ((c : Thread nD τ).loc main_arg8)) := (coef_arg8 (W2 m ρ c)).trans (at2_arg8 m ρ c)
theorem at3_arg9 : W3 m ρ c (Proc.devRef .tc main_arg9) = (m ((c : Thread nD τ).loc main_arg9)) := (coef_arg9 (W2 m ρ c)).trans (at2_arg9 m ρ c)

/-! ### The decoder's region -/

theorem at4_row : W4 m ρ c (Proc.devRef .tc main_v31) = Cert.Spec.decoderRow (F := Ideal) (m ((c : Thread nD τ).loc main_arg0)) (m ((c : Thread nD τ).loc main_arg2)) (m ((c : Thread nD τ).loc main_arg3)) :=
  (W4_arr m ρ c 3).trans
    ((Cert.KernelIdeal.RegionArrays.region0_array (V3 m ρ) c _ _ _ (at3_arg0 m ρ c) (at3_arg2 m ρ c) (at3_bias m ρ c)).trans
      (Cert.Spec.decoder_row _ _ _))

theorem at4_v5 : W4 m ρ c (Proc.devRef .tc main_v5) = (Cert.Spec.src (m ((c : Thread nD τ).loc main_arg1))) := (W4_of_ne m ρ c main_v5 (by decide)).trans (at3_v5 m ρ c)
theorem at4_v6 : W4 m ρ c (Proc.devRef .tc main_v6) = (Cert.Spec.dst (m ((c : Thread nD τ).loc main_arg1))) := (W4_of_ne m ρ c main_v6 (by decide)).trans (at3_v6 m ρ c)
theorem at4_v29 : W4 m ρ c (Proc.devRef .tc main_v29) = (Cert.Spec.coef (F := Ideal) (m ((c : Thread nD τ).loc main_arg1))) := (W4_of_ne m ρ c main_v29 (by decide)).trans (at3_v29 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)
theorem at4_arg8 : W4 m ρ c (Proc.devRef .tc main_arg8) = (m ((c : Thread nD τ).loc main_arg8)) := (W4_of_ne m ρ c main_arg8 (by decide)).trans (at3_arg8 m ρ c)
theorem at4_arg9 : W4 m ρ c (Proc.devRef .tc main_arg9) = (m ((c : Thread nD τ).loc main_arg9)) := (W4_of_ne m ρ c main_arg9 (by decide)).trans (at3_arg9 m ρ c)

/-! ### Up to the first layer's region -/

theorem at5_v5 : W5 m ρ c (Proc.devRef .tc main_v5) = (Cert.Spec.src (m ((c : Thread nD τ).loc main_arg1))) := (mid1_v5 (W4 m ρ c)).trans (at4_v5 m ρ c)
theorem at5_v6 : W5 m ρ c (Proc.devRef .tc main_v6) = (Cert.Spec.dst (m ((c : Thread nD τ).loc main_arg1))) := (mid1_v6 (W4 m ρ c)).trans (at4_v6 m ρ c)
theorem at5_v29 : W5 m ρ c (Proc.devRef .tc main_v29) = (Cert.Spec.coef (F := Ideal) (m ((c : Thread nD τ).loc main_arg1))) := (mid1_v29 (W4 m ρ c)).trans (at4_v29 m ρ c)
theorem at5_arg4 : W5 m ρ c (Proc.devRef .tc main_arg4) = (m ((c : Thread nD τ).loc main_arg4)) := (mid1_arg4 (W4 m ρ c)).trans (at4_arg4 m ρ c)
theorem at5_arg5 : W5 m ρ c (Proc.devRef .tc main_arg5) = (m ((c : Thread nD τ).loc main_arg5)) := (mid1_arg5 (W4 m ρ c)).trans (at4_arg5 m ρ c)
theorem at5_arg6 : W5 m ρ c (Proc.devRef .tc main_arg6) = (m ((c : Thread nD τ).loc main_arg6)) := (mid1_arg6 (W4 m ρ c)).trans (at4_arg6 m ρ c)
theorem at5_arg7 : W5 m ρ c (Proc.devRef .tc main_arg7) = (m ((c : Thread nD τ).loc main_arg7)) := (mid1_arg7 (W4 m ρ c)).trans (at4_arg7 m ρ c)
theorem at5_arg8 : W5 m ρ c (Proc.devRef .tc main_arg8) = (m ((c : Thread nD τ).loc main_arg8)) := (mid1_arg8 (W4 m ρ c)).trans (at4_arg8 m ρ c)
theorem at5_arg9 : W5 m ρ c (Proc.devRef .tc main_arg9) = (m ((c : Thread nD τ).loc main_arg9)) := (mid1_arg9 (W4 m ρ c)).trans (at4_arg9 m ρ c)

/-- The aggregation of the decoded features along the edges, as the first layer's region finds it. -/
theorem at5_aggregate : W5 m ρ c (Proc.devRef .tc main_v45)
    = (Host.scatterAdd (F := Ideal) scatter_S50000x16_S1650000x1_S1650000x16_1_0_0_1
        (broadcastInDim S50000x16 ![] bcast_S_S50000x16 (constant S_ .f32 0x00000000#32)) (Cert.Spec.col (Cert.Spec.dst (m ((c : Thread nD τ).loc main_arg1))))
        (mulf (broadcastInDim S1650000x16 ![0, 1] bcast_S1650000x1_S1650000x16_0_1 (Cert.Spec.colF (F := Ideal) (Cert.Spec.coef (F := Ideal) (m ((c : Thread nD τ).loc main_arg1)))))
          (Host.gather gather_S50000x16_S1650000x1_S1650000x16_1_0_n_n_0_1_116
            (Cert.Spec.decoded (F := Ideal) (m ((c : Thread nD τ).loc main_arg0)) (m ((c : Thread nD τ).loc main_arg2)) (m ((c : Thread nD τ).loc main_arg3))) (Cert.Spec.wrapCol (Cert.Spec.src (m ((c : Thread nD τ).loc main_arg1))))))) := by
  have h := aggregate16 (W4 m ρ c)
  rw [at4_v5, at4_v6, at4_v29, at4_row] at h
  exact h

/-! ### The first layer: aggregate then multiply is multiply then aggregate -/

theorem first_layer_product (s d : IVec Cert.ReferenceIdeal.S1650000 32) (cf : FVec Ideal Cert.ReferenceIdeal.S1650000 .f32)
    (hcf : ∀ e, IsReal (cf e)) (h : FVec Ideal Cert.ReferenceIdeal.S50000x16 .f32) (hh : ∀ j, IsReal (h j))
    (x4 : FVec Ideal Cert.ReferenceIdeal.S16x64 .f32) (h4 : ∀ j, IsReal (x4 j)) (x5 : FVec Ideal Cert.ReferenceIdeal.S64 .f32) :
    addf (product
        (Host.scatterAdd (F := Ideal) scatter_S50000x16_S1650000x1_S1650000x16_1_0_0_1
          (broadcastInDim S50000x16 ![] bcast_S_S50000x16 (constant S_ .f32 0x00000000#32)) (Cert.Spec.col d)
          (mulf (broadcastInDim S1650000x16 ![0, 1] bcast_S1650000x1_S1650000x16_0_1 (Cert.Spec.colF (F := Ideal) cf))
            (Host.gather gather_S50000x16_S1650000x1_S1650000x16_1_0_n_n_0_1_116 h (Cert.Spec.wrapCol s)))) x4)
      (Cert.Spec.bias64 (F := Ideal) x5)
    = Cert.Spec.layer1 (F := Ideal) s d cf h x4 x5 := by
  have e : Host.dotGeneral (F := Ideal) Cert.ReferenceIdeal.dot_S50000x16_S16x64_S50000x64_1_0_0_1_n_n none h x4 = product h x4 :=
    dotGeneral_eq _ none _ h x4
  unfold Cert.Spec.layer1
  rw [e]
  refine congrArg (addf · (Cert.Spec.bias64 (F := Ideal) x5)) ?_
  exact Cert.GraphLayer.aggregate_then_product (N := 50000) (C := 16) (O := 64) (R := 1650000) (by norm_num)
    _ _ _ _ _ _ _ _ _ cf hcf (Cert.Spec.col d) (Cert.Spec.wrapCol s) h hh x4 h4

/-! ### The first layer's region, and up to the second layer's -/

variable (hpre : Cert.Pre_KernelIdeal (hPre_finite_inputs := Cert.Pre_finite_inputs.Gen.facts) m)

theorem at6_product : W6 m ρ c (Proc.devRef .tc main_v46) = product (Host.scatterAdd (F := Ideal) scatter_S50000x16_S1650000x1_S1650000x16_1_0_0_1
        (broadcastInDim S50000x16 ![] bcast_S_S50000x16 (constant S_ .f32 0x00000000#32)) (Cert.Spec.col (Cert.Spec.dst (m ((c : Thread nD τ).loc main_arg1))))
        (mulf (broadcastInDim S1650000x16 ![0, 1] bcast_S1650000x1_S1650000x16_0_1 (Cert.Spec.colF (F := Ideal) (Cert.Spec.coef (F := Ideal) (m ((c : Thread nD τ).loc main_arg1)))))
          (Host.gather gather_S50000x16_S1650000x1_S1650000x16_1_0_n_n_0_1_116
            (Cert.Spec.decoded (F := Ideal) (m ((c : Thread nD τ).loc main_arg0)) (m ((c : Thread nD τ).loc main_arg2)) (m ((c : Thread nD τ).loc main_arg3))) (Cert.Spec.wrapCol (Cert.Spec.src (m ((c : Thread nD τ).loc main_arg1))))))) (m ((c : Thread nD τ).loc main_arg4)) :=
  (W6_arr m ρ c 2).trans (Cert.KernelIdeal.RegionArrays.region1_array (V5 m ρ) c _ _ (at5_aggregate m ρ c) (at5_arg4 m ρ c))

theorem at6_v5 : W6 m ρ c (Proc.devRef .tc main_v5) = (Cert.Spec.src (m ((c : Thread nD τ).loc main_arg1))) := (W6_of_ne m ρ c main_v5 (by decide)).trans (at5_v5 m ρ c)
theorem at6_v6 : W6 m ρ c (Proc.devRef .tc main_v6) = (Cert.Spec.dst (m ((c : Thread nD τ).loc main_arg1))) := (W6_of_ne m ρ c main_v6 (by decide)).trans (at5_v6 m ρ c)
theorem at6_v29 : W6 m ρ c (Proc.devRef .tc main_v29) = (Cert.Spec.coef (F := Ideal) (m ((c : Thread nD τ).loc main_arg1))) := (W6_of_ne m ρ c main_v29 (by decide)).trans (at5_v29 m ρ c)
theorem at6_arg5 : W6 m ρ c (Proc.devRef .tc main_arg5) = (m ((c : Thread nD τ).loc main_arg5)) := (W6_of_ne m ρ c main_arg5 (by decide)).trans (at5_arg5 m ρ c)
theorem at6_arg6 : W6 m ρ c (Proc.devRef .tc main_arg6) = (m ((c : Thread nD τ).loc main_arg6)) := (W6_of_ne m ρ c main_arg6 (by decide)).trans (at5_arg6 m ρ c)
theorem at6_arg7 : W6 m ρ c (Proc.devRef .tc main_arg7) = (m ((c : Thread nD τ).loc main_arg7)) := (W6_of_ne m ρ c main_arg7 (by decide)).trans (at5_arg7 m ρ c)
theorem at6_arg8 : W6 m ρ c (Proc.devRef .tc main_arg8) = (m ((c : Thread nD τ).loc main_arg8)) := (W6_of_ne m ρ c main_arg8 (by decide)).trans (at5_arg8 m ρ c)
theorem at6_arg9 : W6 m ρ c (Proc.devRef .tc main_arg9) = (m ((c : Thread nD τ).loc main_arg9)) := (W6_of_ne m ρ c main_arg9 (by decide)).trans (at5_arg9 m ρ c)

include hpre in
/-- The first layer with its bias, in the network's order. -/
theorem at7_layer1 : W7 m ρ c (Proc.devRef .tc main_v49) = (Cert.Spec.layer1 (F := Ideal) (Cert.Spec.src (m ((c : Thread nD τ).loc main_arg1))) (Cert.Spec.dst (m ((c : Thread nD τ).loc main_arg1))) (Cert.Spec.coef (F := Ideal) (m ((c : Thread nD τ).loc main_arg1))) (Cert.Spec.decoded (F := Ideal) (m ((c : Thread nD τ).loc main_arg0)) (m ((c : Thread nD τ).loc main_arg2)) (m ((c : Thread nD τ).loc main_arg3))) (m ((c : Thread nD τ).loc main_arg4)) (m ((c : Thread nD τ).loc main_arg5))) := by
  have h := bias1_out (W6 m ρ c)
  rw [at6_product, at6_arg5] at h
  obtain ⟨r0, r2, r3, r4⟩ := Cert.KernelIdeal.FiniteArgs.args_real m hpre c
  rw [first_layer_product (Cert.Spec.src (m ((c : Thread nD τ).loc main_arg1))) (Cert.Spec.dst (m ((c : Thread nD τ).loc main_arg1))) (Cert.Spec.coef (F := Ideal) (m ((c : Thread nD τ).loc main_arg1))) (Cert.Spec.coef_real _) (Cert.Spec.decoded (F := Ideal) (m ((c : Thread nD τ).loc main_arg0)) (m ((c : Thread nD τ).loc main_arg2)) (m ((c : Thread nD τ).loc main_arg3))) (Cert.Spec.decoded_real _ _ _ r0 r2 r3) (m ((c : Thread nD τ).loc main_arg4)) r4 (m ((c : Thread nD τ).loc main_arg5))] at h
  exact h

theorem at7_v5 : W7 m ρ c (Proc.devRef .tc main_v5) = (Cert.Spec.src (m ((c : Thread nD τ).loc main_arg1))) := (bias1_v5 (W6 m ρ c)).trans (at6_v5 m ρ c)
theorem at7_v6 : W7 m ρ c (Proc.devRef .tc main_v6) = (Cert.Spec.dst (m ((c : Thread nD τ).loc main_arg1))) := (bias1_v6 (W6 m ρ c)).trans (at6_v6 m ρ c)
theorem at7_v29 : W7 m ρ c (Proc.devRef .tc main_v29) = (Cert.Spec.coef (F := Ideal) (m ((c : Thread nD τ).loc main_arg1))) := (bias1_v29 (W6 m ρ c)).trans (at6_v29 m ρ c)
theorem at7_arg6 : W7 m ρ c (Proc.devRef .tc main_arg6) = (m ((c : Thread nD τ).loc main_arg6)) := (bias1_arg6 (W6 m ρ c)).trans (at6_arg6 m ρ c)
theorem at7_arg7 : W7 m ρ c (Proc.devRef .tc main_arg7) = (m ((c : Thread nD τ).loc main_arg7)) := (bias1_arg7 (W6 m ρ c)).trans (at6_arg7 m ρ c)
theorem at7_arg8 : W7 m ρ c (Proc.devRef .tc main_arg8) = (m ((c : Thread nD τ).loc main_arg8)) := (bias1_arg8 (W6 m ρ c)).trans (at6_arg8 m ρ c)
theorem at7_arg9 : W7 m ρ c (Proc.devRef .tc main_arg9) = (m ((c : Thread nD τ).loc main_arg9)) := (bias1_arg9 (W6 m ρ c)).trans (at6_arg9 m ρ c)

include hpre in
theorem at8_clamped : W8 m ρ c (Proc.devRef .tc main_v50) = Cert.Spec.clamp64 (F := Ideal) (Cert.Spec.layer1 (F := Ideal) (Cert.Spec.src (m ((c : Thread nD τ).loc main_arg1))) (Cert.Spec.dst (m ((c : Thread nD τ).loc main_arg1))) (Cert.Spec.coef (F := Ideal) (m ((c : Thread nD τ).loc main_arg1))) (Cert.Spec.decoded (F := Ideal) (m ((c : Thread nD τ).loc main_arg0)) (m ((c : Thread nD τ).loc main_arg2)) (m ((c : Thread nD τ).loc main_arg3))) (m ((c : Thread nD τ).loc main_arg4)) (m ((c : Thread nD τ).loc main_arg5))) :=
  (clamp1_out (W7 m ρ c)).trans (congrArg _ (at7_layer1 m ρ c hpre))

theorem at8_v5 : W8 m ρ c (Proc.devRef .tc main_v5) = (Cert.Spec.src (m ((c : Thread nD τ).loc main_arg1))) := (clamp1_v5 (W7 m ρ c)).trans (at7_v5 m ρ c)
theorem at8_v6 : W8 m ρ c (Proc.devRef .tc main_v6) = (Cert.Spec.dst (m ((c : Thread nD τ).loc main_arg1))) := (clamp1_v6 (W7 m ρ c)).trans (at7_v6 m ρ c)
theorem at8_v29 : W8 m ρ c (Proc.devRef .tc main_v29) = (Cert.Spec.coef (F := Ideal) (m ((c : Thread nD τ).loc main_arg1))) := (clamp1_v29 (W7 m ρ c)).trans (at7_v29 m ρ c)
theorem at8_arg6 : W8 m ρ c (Proc.devRef .tc main_arg6) = (m ((c : Thread nD τ).loc main_arg6)) := (clamp1_arg6 (W7 m ρ c)).trans (at7_arg6 m ρ c)
theorem at8_arg7 : W8 m ρ c (Proc.devRef .tc main_arg7) = (m ((c : Thread nD τ).loc main_arg7)) := (clamp1_arg7 (W7 m ρ c)).trans (at7_arg7 m ρ c)
theorem at8_arg8 : W8 m ρ c (Proc.devRef .tc main_arg8) = (m ((c : Thread nD τ).loc main_arg8)) := (clamp1_arg8 (W7 m ρ c)).trans (at7_arg8 m ρ c)
theorem at8_arg9 : W8 m ρ c (Proc.devRef .tc main_arg9) = (m ((c : Thread nD τ).loc main_arg9)) := (clamp1_arg9 (W7 m ρ c)).trans (at7_arg9 m ρ c)

/-! ### The second layer's region, and the result -/

include hpre in
theorem at9_product : W9 m ρ c (Proc.devRef .tc main_v51) = (Cert.Spec.product2 (F := Ideal) (Cert.Spec.clamp64 (F := Ideal) (Cert.Spec.layer1 (F := Ideal) (Cert.Spec.src (m ((c : Thread nD τ).loc main_arg1))) (Cert.Spec.dst (m ((c : Thread nD τ).loc main_arg1))) (Cert.Spec.coef (F := Ideal) (m ((c : Thread nD τ).loc main_arg1))) (Cert.Spec.decoded (F := Ideal) (m ((c : Thread nD τ).loc main_arg0)) (m ((c : Thread nD τ).loc main_arg2)) (m ((c : Thread nD τ).loc main_arg3))) (m ((c : Thread nD τ).loc main_arg4)) (m ((c : Thread nD τ).loc main_arg5)))) (m ((c : Thread nD τ).loc main_arg6))) := by
  refine (W9_arr m ρ c 2).trans ((Cert.KernelIdeal.RegionArrays.region2_array (V8 m ρ) c _ _ (at8_clamped m ρ c hpre) (at8_arg6 m ρ c)).trans ?_)
  exact (dotGeneral_eq _ none _ _ _).symm

theorem at9_v5 : W9 m ρ c (Proc.devRef .tc main_v5) = (Cert.Spec.src (m ((c : Thread nD τ).loc main_arg1))) := (W9_of_ne m ρ c main_v5 (by decide)).trans (at8_v5 m ρ c)
theorem at9_v6 : W9 m ρ c (Proc.devRef .tc main_v6) = (Cert.Spec.dst (m ((c : Thread nD τ).loc main_arg1))) := (W9_of_ne m ρ c main_v6 (by decide)).trans (at8_v6 m ρ c)
theorem at9_v29 : W9 m ρ c (Proc.devRef .tc main_v29) = (Cert.Spec.coef (F := Ideal) (m ((c : Thread nD τ).loc main_arg1))) := (W9_of_ne m ρ c main_v29 (by decide)).trans (at8_v29 m ρ c)
theorem at9_arg7 : W9 m ρ c (Proc.devRef .tc main_arg7) = (m ((c : Thread nD τ).loc main_arg7)) := (W9_of_ne m ρ c main_arg7 (by decide)).trans (at8_arg7 m ρ c)
theorem at9_arg8 : W9 m ρ c (Proc.devRef .tc main_arg8) = (m ((c : Thread nD τ).loc main_arg8)) := (W9_of_ne m ρ c main_arg8 (by decide)).trans (at8_arg8 m ρ c)
theorem at9_arg9 : W9 m ρ c (Proc.devRef .tc main_arg9) = (m ((c : Thread nD τ).loc main_arg9)) := (W9_of_ne m ρ c main_arg9 (by decide)).trans (at8_arg9 m ρ c)

include hpre in
theorem at10_second : W10 m ρ c (Proc.devRef .tc main_v69) = (Cert.Spec.layer2sum (F := Ideal) (Cert.Spec.src (m ((c : Thread nD τ).loc main_arg1))) (Cert.Spec.dst (m ((c : Thread nD τ).loc main_arg1))) (Cert.Spec.coef (F := Ideal) (m ((c : Thread nD τ).loc main_arg1))) (Cert.Spec.product2 (F := Ideal) (Cert.Spec.clamp64 (F := Ideal) (Cert.Spec.layer1 (F := Ideal) (Cert.Spec.src (m ((c : Thread nD τ).loc main_arg1))) (Cert.Spec.dst (m ((c : Thread nD τ).loc main_arg1))) (Cert.Spec.coef (F := Ideal) (m ((c : Thread nD τ).loc main_arg1))) (Cert.Spec.decoded (F := Ideal) (m ((c : Thread nD τ).loc main_arg0)) (m ((c : Thread nD τ).loc main_arg2)) (m ((c : Thread nD τ).loc main_arg3))) (m ((c : Thread nD τ).loc main_arg4)) (m ((c : Thread nD τ).loc main_arg5)))) (m ((c : Thread nD τ).loc main_arg6))) (m ((c : Thread nD τ).loc main_arg7))) := by
  have h := second_out (W9 m ρ c)
  rw [at9_v5, at9_v6, at9_v29, at9_product m ρ c hpre, at9_arg7] at h
  exact h

theorem at10_v5 : W10 m ρ c (Proc.devRef .tc main_v5) = (Cert.Spec.src (m ((c : Thread nD τ).loc main_arg1))) := (second_v5 (W9 m ρ c)).trans (at9_v5 m ρ c)
theorem at10_v6 : W10 m ρ c (Proc.devRef .tc main_v6) = (Cert.Spec.dst (m ((c : Thread nD τ).loc main_arg1))) := (second_v6 (W9 m ρ c)).trans (at9_v6 m ρ c)
theorem at10_v29 : W10 m ρ c (Proc.devRef .tc main_v29) = (Cert.Spec.coef (F := Ideal) (m ((c : Thread nD τ).loc main_arg1))) := (second_v29 (W9 m ρ c)).trans (at9_v29 m ρ c)
theorem at10_arg8 : W10 m ρ c (Proc.devRef .tc main_arg8) = (m ((c : Thread nD τ).loc main_arg8)) := (second_arg8 (W9 m ρ c)).trans (at9_arg8 m ρ c)
theorem at10_arg9 : W10 m ρ c (Proc.devRef .tc main_arg9) = (m ((c : Thread nD τ).loc main_arg9)) := (second_arg9 (W9 m ρ c)).trans (at9_arg9 m ρ c)

include hpre in
theorem at11_clamped : W11 m ρ c (Proc.devRef .tc main_v70) = Cert.Spec.clamp32 (F := Ideal) (Cert.Spec.layer2sum (F := Ideal) (Cert.Spec.src (m ((c : Thread nD τ).loc main_arg1))) (Cert.Spec.dst (m ((c : Thread nD τ).loc main_arg1))) (Cert.Spec.coef (F := Ideal) (m ((c : Thread nD τ).loc main_arg1))) (Cert.Spec.product2 (F := Ideal) (Cert.Spec.clamp64 (F := Ideal) (Cert.Spec.layer1 (F := Ideal) (Cert.Spec.src (m ((c : Thread nD τ).loc main_arg1))) (Cert.Spec.dst (m ((c : Thread nD τ).loc main_arg1))) (Cert.Spec.coef (F := Ideal) (m ((c : Thread nD τ).loc main_arg1))) (Cert.Spec.decoded (F := Ideal) (m ((c : Thread nD τ).loc main_arg0)) (m ((c : Thread nD τ).loc main_arg2)) (m ((c : Thread nD τ).loc main_arg3))) (m ((c : Thread nD τ).loc main_arg4)) (m ((c : Thread nD τ).loc main_arg5)))) (m ((c : Thread nD τ).loc main_arg6))) (m ((c : Thread nD τ).loc main_arg7))) :=
  (clamp2_out (W10 m ρ c)).trans (congrArg _ (at10_second m ρ c hpre))

theorem at11_v5 : W11 m ρ c (Proc.devRef .tc main_v5) = (Cert.Spec.src (m ((c : Thread nD τ).loc main_arg1))) := (clamp2_v5 (W10 m ρ c)).trans (at10_v5 m ρ c)
theorem at11_v6 : W11 m ρ c (Proc.devRef .tc main_v6) = (Cert.Spec.dst (m ((c : Thread nD τ).loc main_arg1))) := (clamp2_v6 (W10 m ρ c)).trans (at10_v6 m ρ c)
theorem at11_v29 : W11 m ρ c (Proc.devRef .tc main_v29) = (Cert.Spec.coef (F := Ideal) (m ((c : Thread nD τ).loc main_arg1))) := (clamp2_v29 (W10 m ρ c)).trans (at10_v29 m ρ c)
theorem at11_arg8 : W11 m ρ c (Proc.devRef .tc main_arg8) = (m ((c : Thread nD τ).loc main_arg8)) := (clamp2_arg8 (W10 m ρ c)).trans (at10_arg8 m ρ c)
theorem at11_arg9 : W11 m ρ c (Proc.devRef .tc main_arg9) = (m ((c : Thread nD τ).loc main_arg9)) := (clamp2_arg9 (W10 m ρ c)).trans (at10_arg9 m ρ c)

include hpre in
/-- THE KERNEL'S RESULT: the last boundary's contents at the result buffer is the network of the ten arguments. -/
theorem result_eq : W12 m ρ c (Proc.devRef .tc main_v93)
    = Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := third_out (W11 m ρ c)
  rw [at11_v5, at11_v6, at11_v29, at11_clamped m ρ c hpre, at11_arg8, at11_arg9] at h
  exact h

end Chain

end Cert.KernelIdeal.KernelValue

end
-- ==== Proof.RefValue.lean ====
/-
  The reference program's result is the network of `Spec`.

  Its 118 host operations are read back in ten stretches, cut at the inlined calls, each over an arbitrary valuation
  of the buffers it starts from.  Each stretch's result is the matching stage of `Spec` applied to what the stretch
  found in the buffers it reads, and it leaves the buffers it does not write as they were.  Chained from the launch
  contents, the result buffer holds `Spec.result` of the ten arguments.
-/
import proofs.«108978_j2104533975392_2_alg».proof.Proof.RefRun
import proofs.«108978_j2104533975392_2_alg».proof.Proof.Spec
import proofs.«108978_j2104533975392_2_alg».proof.Proof.Reads
import Idealize.ShloMosaic.PureOps.Ideal

set_option maxRecDepth 16384

noncomputable section

namespace Cert.ReferenceIdeal.RefValue

open Cert.ReferenceIdeal Cert.ReferenceIdeal.Gen Cert.ReferenceIdeal.RunP
open Idealize.ShloMosaic Idealize.ShloMosaic.TcCoe Idealize.SL.Sem Idealize.ShloMosaic.StableHlo
open Cert.Spec Cert.Reads

variable (V : Valuation τ sig (Elt Ideal))

/-! ## The edge lists and the degrees (operations 1–18) -/

theorem edges_src : after ops1a V (Proc.devRef .tc main_v5) = src (V (Proc.devRef .tc main_arg1)) := by
  read_back
  rfl

theorem edges_dst : after ops1a V (Proc.devRef .tc main_v6) = dst (V (Proc.devRef .tc main_arg1)) := by
  read_back
  rfl

theorem edges_positive : after ops1a V (Proc.devRef .tc main_v12) = positive (F := Ideal) (V (Proc.devRef .tc main_arg1)) := by
  read_back
  rfl

theorem edges_rsqrt : after ops1a V (Proc.devRef .tc main_v13) = rsqrtDeg (F := Ideal) (V (Proc.devRef .tc main_arg1)) := by
  read_back
  rfl

theorem edges_zero : after ops1a V (Proc.devRef .tc main_cst_2) = zeroScalar (F := Ideal) := by
  read_back
  rfl

theorem edges_arg0 : after ops1a V (Proc.devRef .tc main_arg0) = V (Proc.devRef .tc main_arg0) := by
  read_back

theorem edges_arg2 : after ops1a V (Proc.devRef .tc main_arg2) = V (Proc.devRef .tc main_arg2) := by
  read_back

theorem edges_arg3 : after ops1a V (Proc.devRef .tc main_arg3) = V (Proc.devRef .tc main_arg3) := by
  read_back

theorem edges_arg4 : after ops1a V (Proc.devRef .tc main_arg4) = V (Proc.devRef .tc main_arg4) := by
  read_back

theorem edges_arg5 : after ops1a V (Proc.devRef .tc main_arg5) = V (Proc.devRef .tc main_arg5) := by
  read_back

theorem edges_arg6 : after ops1a V (Proc.devRef .tc main_arg6) = V (Proc.devRef .tc main_arg6) := by
  read_back

theorem edges_arg7 : after ops1a V (Proc.devRef .tc main_arg7) = V (Proc.devRef .tc main_arg7) := by
  read_back

theorem edges_arg8 : after ops1a V (Proc.devRef .tc main_arg8) = V (Proc.devRef .tc main_arg8) := by
  read_back

theorem edges_arg9 : after ops1a V (Proc.devRef .tc main_arg9) = V (Proc.devRef .tc main_arg9) := by
  read_back

/-! ## The guard (operations 19–21) -/

theorem guard_out : after ops1b V (Proc.devRef .tc main_v14) = guard (F := Ideal) (V (Proc.devRef .tc main_v12)) (V (Proc.devRef .tc main_v13)) (V (Proc.devRef .tc main_cst_2)) := by
  read_back
  rfl

theorem guard_v5 : after ops1b V (Proc.devRef .tc main_v5) = V (Proc.devRef .tc main_v5) := by
  read_back

theorem guard_v6 : after ops1b V (Proc.devRef .tc main_v6) = V (Proc.devRef .tc main_v6) := by
  read_back

theorem guard_arg0 : after ops1b V (Proc.devRef .tc main_arg0) = V (Proc.devRef .tc main_arg0) := by
  read_back

theorem guard_arg2 : after ops1b V (Proc.devRef .tc main_arg2) = V (Proc.devRef .tc main_arg2) := by
  read_back

theorem guard_arg3 : after ops1b V (Proc.devRef .tc main_arg3) = V (Proc.devRef .tc main_arg3) := by
  read_back

theorem guard_arg4 : after ops1b V (Proc.devRef .tc main_arg4) = V (Proc.devRef .tc main_arg4) := by
  read_back

theorem guard_arg5 : after ops1b V (Proc.devRef .tc main_arg5) = V (Proc.devRef .tc main_arg5) := by
  read_back

theorem guard_arg6 : after ops1b V (Proc.devRef .tc main_arg6) = V (Proc.devRef .tc main_arg6) := by
  read_back

theorem guard_arg7 : after ops1b V (Proc.devRef .tc main_arg7) = V (Proc.devRef .tc main_arg7) := by
  read_back

theorem guard_arg8 : after ops1b V (Proc.devRef .tc main_arg8) = V (Proc.devRef .tc main_arg8) := by
  read_back

theorem guard_arg9 : after ops1b V (Proc.devRef .tc main_arg9) = V (Proc.devRef .tc main_arg9) := by
  read_back

/-! ## The edge coefficients (operations 22–40) -/

theorem coef_out : after ops1c V (Proc.devRef .tc main_v29) = coefOf (F := Ideal) (V (Proc.devRef .tc main_v14)) (V (Proc.devRef .tc main_v5)) (V (Proc.devRef .tc main_v6)) := by
  read_back
  rfl

theorem coef_v5 : after ops1c V (Proc.devRef .tc main_v5) = V (Proc.devRef .tc main_v5) := by
  read_back

theorem coef_v6 : after ops1c V (Proc.devRef .tc main_v6) = V (Proc.devRef .tc main_v6) := by
  read_back

theorem coef_arg0 : after ops1c V (Proc.devRef .tc main_arg0) = V (Proc.devRef .tc main_arg0) := by
  read_back

theorem coef_arg2 : after ops1c V (Proc.devRef .tc main_arg2) = V (Proc.devRef .tc main_arg2) := by
  read_back

theorem coef_arg3 : after ops1c V (Proc.devRef .tc main_arg3) = V (Proc.devRef .tc main_arg3) := by
  read_back

theorem coef_arg4 : after ops1c V (Proc.devRef .tc main_arg4) = V (Proc.devRef .tc main_arg4) := by
  read_back

theorem coef_arg5 : after ops1c V (Proc.devRef .tc main_arg5) = V (Proc.devRef .tc main_arg5) := by
  read_back

theorem coef_arg6 : after ops1c V (Proc.devRef .tc main_arg6) = V (Proc.devRef .tc main_arg6) := by
  read_back

theorem coef_arg7 : after ops1c V (Proc.devRef .tc main_arg7) = V (Proc.devRef .tc main_arg7) := by
  read_back

theorem coef_arg8 : after ops1c V (Proc.devRef .tc main_arg8) = V (Proc.devRef .tc main_arg8) := by
  read_back

theorem coef_arg9 : after ops1c V (Proc.devRef .tc main_arg9) = V (Proc.devRef .tc main_arg9) := by
  read_back

/-! ## The decoder and the first layer up to its bias (operations 41–64) -/

theorem first_out : after ops2a V (Proc.devRef .tc main_v50)
    = layer1 (F := Ideal) (V (Proc.devRef .tc main_v5)) (V (Proc.devRef .tc main_v6)) (V (Proc.devRef .tc main_v29))
        (decoded (F := Ideal) (V (Proc.devRef .tc main_arg0)) (V (Proc.devRef .tc main_arg2)) (V (Proc.devRef .tc main_arg3))) (V (Proc.devRef .tc main_arg4)) (V (Proc.devRef .tc main_arg5)) := by
  read_back
  rfl

theorem first_v5 : after ops2a V (Proc.devRef .tc main_v5) = V (Proc.devRef .tc main_v5) := by
  read_back

theorem first_v6 : after ops2a V (Proc.devRef .tc main_v6) = V (Proc.devRef .tc main_v6) := by
  read_back

theorem first_v29 : after ops2a V (Proc.devRef .tc main_v29) = V (Proc.devRef .tc main_v29) := by
  read_back

theorem first_arg6 : after ops2a V (Proc.devRef .tc main_arg6) = V (Proc.devRef .tc main_arg6) := by
  read_back

theorem first_arg7 : after ops2a V (Proc.devRef .tc main_arg7) = V (Proc.devRef .tc main_arg7) := by
  read_back

theorem first_arg8 : after ops2a V (Proc.devRef .tc main_arg8) = V (Proc.devRef .tc main_arg8) := by
  read_back

theorem first_arg9 : after ops2a V (Proc.devRef .tc main_arg9) = V (Proc.devRef .tc main_arg9) := by
  read_back

/-! ## Its clamp (operations 65–67) and the second layer's product (operation 68) -/

theorem clamp1_out : after ops2b V (Proc.devRef .tc main_v51) = clamp64 (F := Ideal) (V (Proc.devRef .tc main_v50)) := by
  read_back
  rfl

theorem clamp1_v5 : after ops2b V (Proc.devRef .tc main_v5) = V (Proc.devRef .tc main_v5) := by
  read_back

theorem clamp1_v6 : after ops2b V (Proc.devRef .tc main_v6) = V (Proc.devRef .tc main_v6) := by
  read_back

theorem clamp1_v29 : after ops2b V (Proc.devRef .tc main_v29) = V (Proc.devRef .tc main_v29) := by
  read_back

theorem clamp1_arg6 : after ops2b V (Proc.devRef .tc main_arg6) = V (Proc.devRef .tc main_arg6) := by
  read_back

theorem clamp1_arg7 : after ops2b V (Proc.devRef .tc main_arg7) = V (Proc.devRef .tc main_arg7) := by
  read_back

theorem clamp1_arg8 : after ops2b V (Proc.devRef .tc main_arg8) = V (Proc.devRef .tc main_arg8) := by
  read_back

theorem clamp1_arg9 : after ops2b V (Proc.devRef .tc main_arg9) = V (Proc.devRef .tc main_arg9) := by
  read_back

theorem product2_out : after ops2c V (Proc.devRef .tc main_v52) = product2 (F := Ideal) (V (Proc.devRef .tc main_v51)) (V (Proc.devRef .tc main_arg6)) := by
  read_back
  rfl

theorem product2_v5 : after ops2c V (Proc.devRef .tc main_v5) = V (Proc.devRef .tc main_v5) := by
  read_back

theorem product2_v6 : after ops2c V (Proc.devRef .tc main_v6) = V (Proc.devRef .tc main_v6) := by
  read_back

theorem product2_v29 : after ops2c V (Proc.devRef .tc main_v29) = V (Proc.devRef .tc main_v29) := by
  read_back

theorem product2_arg7 : after ops2c V (Proc.devRef .tc main_arg7) = V (Proc.devRef .tc main_arg7) := by
  read_back

theorem product2_arg8 : after ops2c V (Proc.devRef .tc main_arg8) = V (Proc.devRef .tc main_arg8) := by
  read_back

theorem product2_arg9 : after ops2c V (Proc.devRef .tc main_arg9) = V (Proc.devRef .tc main_arg9) := by
  read_back

/-! ## The second layer up to its bias (operations 69–87), its clamp (88–90), the third layer's product (91) -/

theorem second_out : after ops3a V (Proc.devRef .tc main_v68)
    = layer2sum (F := Ideal) (V (Proc.devRef .tc main_v5)) (V (Proc.devRef .tc main_v6)) (V (Proc.devRef .tc main_v29)) (V (Proc.devRef .tc main_v52)) (V (Proc.devRef .tc main_arg7)) := by
  read_back
  rfl

theorem second_v5 : after ops3a V (Proc.devRef .tc main_v5) = V (Proc.devRef .tc main_v5) := by
  read_back

theorem second_v6 : after ops3a V (Proc.devRef .tc main_v6) = V (Proc.devRef .tc main_v6) := by
  read_back

theorem second_v29 : after ops3a V (Proc.devRef .tc main_v29) = V (Proc.devRef .tc main_v29) := by
  read_back

theorem second_arg8 : after ops3a V (Proc.devRef .tc main_arg8) = V (Proc.devRef .tc main_arg8) := by
  read_back

theorem second_arg9 : after ops3a V (Proc.devRef .tc main_arg9) = V (Proc.devRef .tc main_arg9) := by
  read_back

theorem clamp2_out : after ops3b V (Proc.devRef .tc main_v69) = clamp32 (F := Ideal) (V (Proc.devRef .tc main_v68)) := by
  read_back
  rfl

theorem clamp2_v5 : after ops3b V (Proc.devRef .tc main_v5) = V (Proc.devRef .tc main_v5) := by
  read_back

theorem clamp2_v6 : after ops3b V (Proc.devRef .tc main_v6) = V (Proc.devRef .tc main_v6) := by
  read_back

theorem clamp2_v29 : after ops3b V (Proc.devRef .tc main_v29) = V (Proc.devRef .tc main_v29) := by
  read_back

theorem clamp2_arg8 : after ops3b V (Proc.devRef .tc main_arg8) = V (Proc.devRef .tc main_arg8) := by
  read_back

theorem clamp2_arg9 : after ops3b V (Proc.devRef .tc main_arg9) = V (Proc.devRef .tc main_arg9) := by
  read_back

theorem product3_out : after ops3c V (Proc.devRef .tc main_v70) = product3 (F := Ideal) (V (Proc.devRef .tc main_v69)) (V (Proc.devRef .tc main_arg8)) := by
  read_back
  rfl

theorem product3_v5 : after ops3c V (Proc.devRef .tc main_v5) = V (Proc.devRef .tc main_v5) := by
  read_back

theorem product3_v6 : after ops3c V (Proc.devRef .tc main_v6) = V (Proc.devRef .tc main_v6) := by
  read_back

theorem product3_v29 : after ops3c V (Proc.devRef .tc main_v29) = V (Proc.devRef .tc main_v29) := by
  read_back

theorem product3_arg9 : after ops3c V (Proc.devRef .tc main_arg9) = V (Proc.devRef .tc main_arg9) := by
  read_back

/-! ## The third layer and the logistic function (operations 92–118) -/

theorem third_out : after ops4 V (Proc.devRef .tc main_v92)
    = layer3 (F := Ideal) (V (Proc.devRef .tc main_v5)) (V (Proc.devRef .tc main_v6)) (V (Proc.devRef .tc main_v29)) (V (Proc.devRef .tc main_v70)) (V (Proc.devRef .tc main_arg9)) := by
  read_back
  rfl

/-! ## The whole program -/

/-- From the launch contents the result buffer ends at the network of the ten arguments. -/
theorem result_eq (m : (ℓ : Loc nD τ sig) → Buf (Elt Ideal) ℓ) (c : Dev nD) :
    after ops (launchContents m c) (Proc.devRef .tc main_v92)
      = result (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [after_ops, third_out,
    product3_v5, product3_v6, product3_v29, product3_arg9, product3_out,
    clamp2_v5, clamp2_v6, clamp2_v29, clamp2_arg8, clamp2_arg9, clamp2_out,
    second_v5, second_v6, second_v29, second_arg8, second_arg9, second_out,
    product2_v5, product2_v6, product2_v29, product2_arg7, product2_arg8, product2_arg9, product2_out,
    clamp1_v5, clamp1_v6, clamp1_v29, clamp1_arg6, clamp1_arg7, clamp1_arg8, clamp1_arg9, clamp1_out,
    first_v5, first_v6, first_v29, first_arg6, first_arg7, first_arg8, first_arg9, first_out,
    coef_v5, coef_v6, coef_arg0, coef_arg2, coef_arg3, coef_arg4, coef_arg5, coef_arg6, coef_arg7, coef_arg8, coef_arg9, coef_out,
    guard_v5, guard_v6, guard_arg0, guard_arg2, guard_arg3, guard_arg4, guard_arg5, guard_arg6, guard_arg7, guard_arg8, guard_arg9,
    guard_out,
    edges_src, edges_dst, edges_positive, edges_rsqrt, edges_zero,
    edges_arg0, edges_arg2, edges_arg3, edges_arg4, edges_arg5, edges_arg6, edges_arg7, edges_arg8, edges_arg9]
  rfl

end Cert.ReferenceIdeal.RefValue

end
-- ==== Proof.lean ====
/-
  The certificate of a graph decoder: a decoder row `x · dec_W + dec_b` laid out as node features, three graph layers
  over an edge list with self loops (edge coefficients the products of the end nodes' guarded inverse square root
  degrees), the logistic function at the end.

  The kernel program computes the decoder's product and the first two layers' dense products in three grid regions
  (block by block, the factors passing through a shorter float format on the way in) and everything else on the host;
  its first layer aggregates the 16 decoded features along the edges BEFORE multiplying by the weight matrix.  The
  reference multiplies first.  At the ideal instance the format changes are the identity and a region's blocks are the
  rows (or columns) of one whole product, so the two programs differ only in that order, and for finite inputs the
  order does not matter: every coefficient, decoded feature and weight is then a real number, and over the reals a
  factor moves across a finite sum and two finite sums exchange.  Both results are the one network of `Spec`.

  The three frames are the programs' runs with the results dropped; the kernel's idealization rewrote nothing.
-/
import proofs.«108978_j2104533975392_2_alg».proof.Defs
import proofs.«108978_j2104533975392_2_alg».proof.Proof.Gen.Kernel
import proofs.«108978_j2104533975392_2_alg».proof.Proof.Gen.Kernel.Frame
import proofs.«108978_j2104533975392_2_alg».proof.Proof.Gen.KernelIdeal
import proofs.«108978_j2104533975392_2_alg».proof.Proof.Gen.KernelIdeal.Frame
import proofs.«108978_j2104533975392_2_alg».proof.Proof.Gen.ReferenceIdeal
import proofs.«108978_j2104533975392_2_alg».proof.Proof.Gen.Pre_finite_inputs
import proofs.«108978_j2104533975392_2_alg».proof.Proof.KernelRun
import proofs.«108978_j2104533975392_2_alg».proof.Proof.KernelValue
import proofs.«108978_j2104533975392_2_alg».proof.Proof.RefRun
import proofs.«108978_j2104533975392_2_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame is its run with the result dropped. -/
theorem frame_reference_ideal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.RunP.run_fold (F := Ideal) m ρ)

/-- From memories agreeing on the arguments both programs end with the network of the arguments in their result
    arrays: the kernel's by its run and its value for finite inputs, the reference's by its run and its value. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, (θ_run Cert.KernelIdeal.defs _ _).mono
    (fun _ h c => ⟨(h c).1.trans (Cert.KernelIdeal.KernelValue.result_eq m ρ c hpre), (h c).2⟩)
    (Cert.KernelIdeal.RunValue.run_result (F := Ideal) m ρ), ?_⟩
  refine (θ_run Cert.ReferenceIdeal.defs _ _).mono (fun _ h c => ⟨(h c).1.trans ?_, (h c).2⟩)
    (Cert.ReferenceIdeal.RunP.run_fold (F := Ideal) m' ρ')
  obtain ⟨e0, e1, e2, e3, e4, e5, e6, e7, e8, e9⟩ := hagree c
  rw [Cert.ReferenceIdeal.RefValue.result_eq m' c, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
